-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x256 : Shape := ⟨2, ![131072, 256]⟩
abbrev S_ : Shape := ⟨0, ![]⟩
abbrev S131072x16x16 : Shape := ⟨3, ![131072, 16, 16]⟩
abbrev S131072x16 : Shape := ⟨2, ![131072, 16]⟩
abbrev S131072x1x16 : Shape := ⟨3, ![131072, 1, 16]⟩
abbrev S131072x16x1 : Shape := ⟨3, ![131072, 16, 1]⟩

class Facts : Prop where
  bcast_S_S131072x256 : S_.BroadcastsInDim S131072x256 (![] : Fin 0 → Fin S131072x256.rank)
  reducesTo_S131072x256_S_d0_1 : S131072x256.ReducesTo [0, 1] S_
  h_S_ : 0 < S_.numel
  shapeCasts_S131072x256_S131072x16x16 : S131072x256.ShapeCasts S131072x16x16
  transposes_S131072x16x16_S131072x16x16_0_2_1 : S131072x16x16.Transposes [0, 2, 1] S131072x16x16
  bcast_S_S131072x16x16 : S_.BroadcastsInDim S131072x16x16 (![] : Fin 0 → Fin S131072x16x16.rank)
  reducesTo_S131072x16x16_S131072x16_d1 : S131072x16x16.ReducesTo [1] S131072x16
  bcast_S131072x16_S131072x1x16_0_2 : S131072x16.BroadcastsInDim S131072x1x16 (![0, 2] : Fin 2 → Fin S131072x1x16.rank)
  bcast_S_S131072x1x16 : S_.BroadcastsInDim S131072x1x16 (![] : Fin 0 → Fin S131072x1x16.rank)
  reducesTo_S131072x1x16_S_d0_1_2 : S131072x1x16.ReducesTo [0, 1, 2] S_
  bcast_S131072x1x16_S131072x16x16_0_1_2 : S131072x1x16.BroadcastsInDim S131072x16x16 (![0, 1, 2] : Fin 3 → Fin S131072x16x16.rank)
  reducesTo_S131072x16x16_S131072x16_d2 : S131072x16x16.ReducesTo [2] S131072x16
  bcast_S131072x16_S131072x16x1_0_1 : S131072x16.BroadcastsInDim S131072x16x1 (![0, 1] : Fin 2 → Fin S131072x16x1.rank)
  bcast_S_S131072x16x1 : S_.BroadcastsInDim S131072x16x1 (![] : Fin 0 → Fin S131072x16x1.rank)
  reducesTo_S131072x16x1_S_d0_1_2 : S131072x16x1.ReducesTo [0, 1, 2] S_
  bcast_S131072x16x1_S131072x16x16_0_1_2 : S131072x16x1.BroadcastsInDim S131072x16x16 (![0, 1, 2] : Fin 3 → Fin S131072x16x16.rank)

variable [Facts]

def fn_part9 {F : FTy → Type} [FloatOps F] (main_v149 : IVec S_ 1) (main_v151 : FVec F S131072x16x16 .f32) (main_v153 : FVec F S131072x1x16 .f32) (main_v155 : IVec S131072x1x16 1) (main_c_57 : IVec S_ 1) : IVec S_ 1 :=
  let main_v156 : IVec S_ 1 := (fun x v => Host.reduce IntOp.andi x v reducesTo_S131072x1x16_S_d0_1_2 h_S_) main_v155 main_c_57
  let main_v157 : IVec S_ 1 := andi main_v149 main_v156
  let main_v158 : FVec F S131072x16x16 .f32 := broadcastInDim S131072x16x16 ![0, 1, 2] bcast_S131072x1x16_S131072x16x16_0_1_2 main_v153
  let main_v159 : FVec F S131072x16x16 .f32 := Host.divf main_v151 main_v158
  let main_cst_58 : FVec F S_ .f32 := constant S_ .f32 0x00000000#32
  let main_v160 : FVec F S131072x16 .f32 := (fun x v => Host.reduceAdd x v reducesTo_S131072x16x16_S131072x16_d2 h_S_) main_v159 main_cst_58
  let main_v161 : FVec F S131072x16x1 .f32 := broadcastInDim S131072x16x1 ![0, 1] bcast_S131072x16_S131072x16x1_0_1 main_v160
  let main_cst_59 : FVec F S_ .f32 := constant S_ .f32 0x00000000#32
  let main_v162 : FVec F S131072x16x1 .f32 := broadcastInDim S131072x16x1 ![] bcast_S_S131072x16x1 main_cst_59
  let main_v163 : IVec S131072x16x1 1 := cmpf .une main_v161 main_v162
  let main_c_60 : IVec S_ 1 := constantI S_ 1 1#1
  let main_v164 : IVec S_ 1 := (fun x v => Host.reduce IntOp.andi x v reducesTo_S131072x16x1_S_d0_1_2 h_S_) main_v163 main_c_60
  let main_v165 : IVec S_ 1 := andi main_v157 main_v164
  let main_v166 : FVec F S131072x16x16 .f32 := broadcastInDim S131072x16x16 ![0, 1, 2] bcast_S131072x16x1_S131072x16x16_0_1_2 main_v161
  let main_v167 : FVec F S131072x16x16 .f32 := Host.divf main_v159 main_v166
  main_v165

def fn_part8 {F : FTy → Type} [FloatOps F] (main_v133 : IVec S_ 1) (main_v135 : FVec F S131072x16x16 .f32) (main_v137 : FVec F S131072x1x16 .f32) (main_v138 : FVec F S131072x1x16 .f32) : IVec S_ 1 :=
  let main_v139 : IVec S131072x1x16 1 := cmpf .une main_v137 main_v138
  let main_c_51 : IVec S_ 1 := constantI S_ 1 1#1
  let main_v140 : IVec S_ 1 := (fun x v => Host.reduce IntOp.andi x v reducesTo_S131072x1x16_S_d0_1_2 h_S_) main_v139 main_c_51
  let main_v141 : IVec S_ 1 := andi main_v133 main_v140
  let main_v142 : FVec F S131072x16x16 .f32 := broadcastInDim S131072x16x16 ![0, 1, 2] bcast_S131072x1x16_S131072x16x16_0_1_2 main_v137
  let main_v143 : FVec F S131072x16x16 .f32 := Host.divf main_v135 main_v142
  let main_cst_52 : FVec F S_ .f32 := constant S_ .f32 0x00000000#32
  let main_v144 : FVec F S131072x16 .f32 := (fun x v => Host.reduceAdd x v reducesTo_S131072x16x16_S131072x16_d2 h_S_) main_v143 main_cst_52
  let main_v145 : FVec F S131072x16x1 .f32 := broadcastInDim S131072x16x1 ![0, 1] bcast_S131072x16_S131072x16x1_0_1 main_v144
  let main_cst_53 : FVec F S_ .f32 := constant S_ .f32 0x00000000#32
  let main_v146 : FVec F S131072x16x1 .f32 := broadcastInDim S131072x16x1 ![] bcast_S_S131072x16x1 main_cst_53
  let main_v147 : IVec S131072x16x1 1 := cmpf .une main_v145 main_v146
  let main_c_54 : IVec S_ 1 := constantI S_ 1 1#1
  let main_v148 : IVec S_ 1 := (fun x v => Host.reduce IntOp.andi x v reducesTo_S131072x16x1_S_d0_1_2 h_S_) main_v147 main_c_54
  let main_v149 : IVec S_ 1 := andi main_v141 main_v148
  let main_v150 : FVec F S131072x16x16 .f32 := broadcastInDim S131072x16x16 ![0, 1, 2] bcast_S131072x16x1_S131072x16x16_0_1_2 main_v145
  let main_v151 : FVec F S131072x16x16 .f32 := Host.divf main_v143 main_v150
  let main_cst_55 : FVec F S_ .f32 := constant S_ .f32 0x00000000#32
  let main_v152 : FVec F S131072x16 .f32 := (fun x v => Host.reduceAdd x v reducesTo_S131072x16x16_S131072x16_d1 h_S_) main_v151 main_cst_55
  let main_v153 : FVec F S131072x1x16 .f32 := broadcastInDim S131072x1x16 ![0, 2] bcast_S131072x16_S131072x1x16_0_2 main_v152
  let main_cst_56 : FVec F S_ .f32 := constant S_ .f32 0x00000000#32
  let main_v154 : FVec F S131072x1x16 .f32 := broadcastInDim S131072x1x16 ![] bcast_S_S131072x1x16 main_cst_56
  let main_v155 : IVec S131072x1x16 1 := cmpf .une main_v153 main_v154
  let main_c_57 : IVec S_ 1 := constantI S_ 1 1#1
  fn_part9 (F := F) main_v149 main_v151 main_v153 main_v155 main_c_57

def fn_part7 {F : FTy → Type} [FloatOps F] (main_v117 : IVec S_ 1) (main_v119 : FVec F S131072x16x16 .f32) (main_v121 : FVec F S131072x1x16 .f32) : IVec S_ 1 :=
  let main_cst_44 : FVec F S_ .f32 := constant S_ .f32 0x00000000#32
  let main_v122 : FVec F S131072x1x16 .f32 := broadcastInDim S131072x1x16 ![] bcast_S_S131072x1x16 main_cst_44
  let main_v123 : IVec S131072x1x16 1 := cmpf .une main_v121 main_v122
  let main_c_45 : IVec S_ 1 := constantI S_ 1 1#1
  let main_v124 : IVec S_ 1 := (fun x v => Host.reduce IntOp.andi x v reducesTo_S131072x1x16_S_d0_1_2 h_S_) main_v123 main_c_45
  let main_v125 : IVec S_ 1 := andi main_v117 main_v124
  let main_v126 : FVec F S131072x16x16 .f32 := broadcastInDim S131072x16x16 ![0, 1, 2] bcast_S131072x1x16_S131072x16x16_0_1_2 main_v121
  let main_v127 : FVec F S131072x16x16 .f32 := Host.divf main_v119 main_v126
  let main_cst_46 : FVec F S_ .f32 := constant S_ .f32 0x00000000#32
  let main_v128 : FVec F S131072x16 .f32 := (fun x v => Host.reduceAdd x v reducesTo_S131072x16x16_S131072x16_d2 h_S_) main_v127 main_cst_46
  let main_v129 : FVec F S131072x16x1 .f32 := broadcastInDim S131072x16x1 ![0, 1] bcast_S131072x16_S131072x16x1_0_1 main_v128
  let main_cst_47 : FVec F S_ .f32 := constant S_ .f32 0x00000000#32
  let main_v130 : FVec F S131072x16x1 .f32 := broadcastInDim S131072x16x1 ![] bcast_S_S131072x16x1 main_cst_47
  let main_v131 : IVec S131072x16x1 1 := cmpf .une main_v129 main_v130
  let main_c_48 : IVec S_ 1 := constantI S_ 1 1#1
  let main_v132 : IVec S_ 1 := (fun x v => Host.reduce IntOp.andi x v reducesTo_S131072x16x1_S_d0_1_2 h_S_) main_v131 main_c_48
  let main_v133 : IVec S_ 1 := andi main_v125 main_v132
  let main_v134 : FVec F S131072x16x16 .f32 := broadcastInDim S131072x16x16 ![0, 1, 2] bcast_S131072x16x1_S131072x16x16_0_1_2 main_v129
  let main_v135 : FVec F S131072x16x16 .f32 := Host.divf main_v127 main_v134
  let main_cst_49 : FVec F S_ .f32 := constant S_ .f32 0x00000000#32
  let main_v136 : FVec F S131072x16 .f32 := (fun x v => Host.reduceAdd x v reducesTo_S131072x16x16_S131072x16_d1 h_S_) main_v135 main_cst_49
  let main_v137 : FVec F S131072x1x16 .f32 := broadcastInDim S131072x1x16 ![0, 2] bcast_S131072x16_S131072x1x16_0_2 main_v136
  let main_cst_50 : FVec F S_ .f32 := constant S_ .f32 0x00000000#32
  let main_v138 : FVec F S131072x1x16 .f32 := broadcastInDim S131072x1x16 ![] bcast_S_S131072x1x16 main_cst_50
  fn_part8 (F := F) main_v133 main_v135 main_v137 main_v138

def fn_part6 {F : FTy → Type} [FloatOps F] (main_v101 : IVec S_ 1) (main_v103 : FVec F S131072x16x16 .f32) (main_cst_37 : FVec F S_ .f32) : IVec S_ 1 :=
  let main_v104 : FVec F S131072x16 .f32 := (fun x v => Host.reduceAdd x v reducesTo_S131072x16x16_S131072x16_d1 h_S_) main_v103 main_cst_37
  let main_v105 : FVec F S131072x1x16 .f32 := broadcastInDim S131072x1x16 ![0, 2] bcast_S131072x16_S131072x1x16_0_2 main_v104
  let main_cst_38 : FVec F S_ .f32 := constant S_ .f32 0x00000000#32
  let main_v106 : FVec F S131072x1x16 .f32 := broadcastInDim S131072x1x16 ![] bcast_S_S131072x1x16 main_cst_38
  let main_v107 : IVec S131072x1x16 1 := cmpf .une main_v105 main_v106
  let main_c_39 : IVec S_ 1 := constantI S_ 1 1#1
  let main_v108 : IVec S_ 1 := (fun x v => Host.reduce IntOp.andi x v reducesTo_S131072x1x16_S_d0_1_2 h_S_) main_v107 main_c_39
  let main_v109 : IVec S_ 1 := andi main_v101 main_v108
  let main_v110 : FVec F S131072x16x16 .f32 := broadcastInDim S131072x16x16 ![0, 1, 2] bcast_S131072x1x16_S131072x16x16_0_1_2 main_v105
  let main_v111 : FVec F S131072x16x16 .f32 := Host.divf main_v103 main_v110
  let main_cst_40 : FVec F S_ .f32 := constant S_ .f32 0x00000000#32
  let main_v112 : FVec F S131072x16 .f32 := (fun x v => Host.reduceAdd x v reducesTo_S131072x16x16_S131072x16_d2 h_S_) main_v111 main_cst_40
  let main_v113 : FVec F S131072x16x1 .f32 := broadcastInDim S131072x16x1 ![0, 1] bcast_S131072x16_S131072x16x1_0_1 main_v112
  let main_cst_41 : FVec F S_ .f32 := constant S_ .f32 0x00000000#32
  let main_v114 : FVec F S131072x16x1 .f32 := broadcastInDim S131072x16x1 ![] bcast_S_S131072x16x1 main_cst_41
  let main_v115 : IVec S131072x16x1 1 := cmpf .une main_v113 main_v114
  let main_c_42 : IVec S_ 1 := constantI S_ 1 1#1
  let main_v116 : IVec S_ 1 := (fun x v => Host.reduce IntOp.andi x v reducesTo_S131072x16x1_S_d0_1_2 h_S_) main_v115 main_c_42
  let main_v117 : IVec S_ 1 := andi main_v109 main_v116
  let main_v118 : FVec F S131072x16x16 .f32 := broadcastInDim S131072x16x16 ![0, 1, 2] bcast_S131072x16x1_S131072x16x16_0_1_2 main_v113
  let main_v119 : FVec F S131072x16x16 .f32 := Host.divf main_v111 main_v118
  let main_cst_43 : FVec F S_ .f32 := constant S_ .f32 0x00000000#32
  let main_v120 : FVec F S131072x16 .f32 := (fun x v => Host.reduceAdd x v reducesTo_S131072x16x16_S131072x16_d1 h_S_) main_v119 main_cst_43
  let main_v121 : FVec F S131072x1x16 .f32 := broadcastInDim S131072x1x16 ![0, 2] bcast_S131072x16_S131072x1x16_0_2 main_v120
  fn_part7 (F := F) main_v117 main_v119 main_v121

def fn_part5 {F : FTy → Type} [FloatOps F] (main_v79 : FVec F S131072x16x16 .f32) (main_v85 : IVec S_ 1) (main_v86 : FVec F S131072x16x16 .f32) : IVec S_ 1 :=
  let main_v87 : FVec F S131072x16x16 .f32 := Host.divf main_v79 main_v86
  let main_cst_31 : FVec F S_ .f32 := constant S_ .f32 0x00000000#32
  let main_v88 : FVec F S131072x16 .f32 := (fun x v => Host.reduceAdd x v reducesTo_S131072x16x16_S131072x16_d1 h_S_) main_v87 main_cst_31
  let main_v89 : FVec F S131072x1x16 .f32 := broadcastInDim S131072x1x16 ![0, 2] bcast_S131072x16_S131072x1x16_0_2 main_v88
  let main_cst_32 : FVec F S_ .f32 := constant S_ .f32 0x00000000#32
  let main_v90 : FVec F S131072x1x16 .f32 := broadcastInDim S131072x1x16 ![] bcast_S_S131072x1x16 main_cst_32
  let main_v91 : IVec S131072x1x16 1 := cmpf .une main_v89 main_v90
  let main_c_33 : IVec S_ 1 := constantI S_ 1 1#1
  let main_v92 : IVec S_ 1 := (fun x v => Host.reduce IntOp.andi x v reducesTo_S131072x1x16_S_d0_1_2 h_S_) main_v91 main_c_33
  let main_v93 : IVec S_ 1 := andi main_v85 main_v92
  let main_v94 : FVec F S131072x16x16 .f32 := broadcastInDim S131072x16x16 ![0, 1, 2] bcast_S131072x1x16_S131072x16x16_0_1_2 main_v89
  let main_v95 : FVec F S131072x16x16 .f32 := Host.divf main_v87 main_v94
  let main_cst_34 : FVec F S_ .f32 := constant S_ .f32 0x00000000#32
  let main_v96 : FVec F S131072x16 .f32 := (fun x v => Host.reduceAdd x v reducesTo_S131072x16x16_S131072x16_d2 h_S_) main_v95 main_cst_34
  let main_v97 : FVec F S131072x16x1 .f32 := broadcastInDim S131072x16x1 ![0, 1] bcast_S131072x16_S131072x16x1_0_1 main_v96
  let main_cst_35 : FVec F S_ .f32 := constant S_ .f32 0x00000000#32
  let main_v98 : FVec F S131072x16x1 .f32 := broadcastInDim S131072x16x1 ![] bcast_S_S131072x16x1 main_cst_35
  let main_v99 : IVec S131072x16x1 1 := cmpf .une main_v97 main_v98
  let main_c_36 : IVec S_ 1 := constantI S_ 1 1#1
  let main_v100 : IVec S_ 1 := (fun x v => Host.reduce IntOp.andi x v reducesTo_S131072x16x1_S_d0_1_2 h_S_) main_v99 main_c_36
  let main_v101 : IVec S_ 1 := andi main_v93 main_v100
  let main_v102 : FVec F S131072x16x16 .f32 := broadcastInDim S131072x16x16 ![0, 1, 2] bcast_S131072x16x1_S131072x16x16_0_1_2 main_v97
  let main_v103 : FVec F S131072x16x16 .f32 := Host.divf main_v95 main_v102
  let main_cst_37 : FVec F S_ .f32 := constant S_ .f32 0x00000000#32
  fn_part6 (F := F) main_v101 main_v103 main_cst_37

def fn_part4 {F : FTy → Type} [FloatOps F] (main_v61 : IVec S_ 1) (main_v63 : FVec F S131072x16x16 .f32) (main_v65 : FVec F S131072x16x1 .f32) (main_v68 : IVec S_ 1) : IVec S_ 1 :=
  let main_v69 : IVec S_ 1 := andi main_v61 main_v68
  let main_v70 : FVec F S131072x16x16 .f32 := broadcastInDim S131072x16x16 ![0, 1, 2] bcast_S131072x16x1_S131072x16x16_0_1_2 main_v65
  let main_v71 : FVec F S131072x16x16 .f32 := Host.divf main_v63 main_v70
  let main_cst_25 : FVec F S_ .f32 := constant S_ .f32 0x00000000#32
  let main_v72 : FVec F S131072x16 .f32 := (fun x v => Host.reduceAdd x v reducesTo_S131072x16x16_S131072x16_d1 h_S_) main_v71 main_cst_25
  let main_v73 : FVec F S131072x1x16 .f32 := broadcastInDim S131072x1x16 ![0, 2] bcast_S131072x16_S131072x1x16_0_2 main_v72
  let main_cst_26 : FVec F S_ .f32 := constant S_ .f32 0x00000000#32
  let main_v74 : FVec F S131072x1x16 .f32 := broadcastInDim S131072x1x16 ![] bcast_S_S131072x1x16 main_cst_26
  let main_v75 : IVec S131072x1x16 1 := cmpf .une main_v73 main_v74
  let main_c_27 : IVec S_ 1 := constantI S_ 1 1#1
  let main_v76 : IVec S_ 1 := (fun x v => Host.reduce IntOp.andi x v reducesTo_S131072x1x16_S_d0_1_2 h_S_) main_v75 main_c_27
  let main_v77 : IVec S_ 1 := andi main_v69 main_v76
  let main_v78 : FVec F S131072x16x16 .f32 := broadcastInDim S131072x16x16 ![0, 1, 2] bcast_S131072x1x16_S131072x16x16_0_1_2 main_v73
  let main_v79 : FVec F S131072x16x16 .f32 := Host.divf main_v71 main_v78
  let main_cst_28 : FVec F S_ .f32 := constant S_ .f32 0x00000000#32
  let main_v80 : FVec F S131072x16 .f32 := (fun x v => Host.reduceAdd x v reducesTo_S131072x16x16_S131072x16_d2 h_S_) main_v79 main_cst_28
  let main_v81 : FVec F S131072x16x1 .f32 := broadcastInDim S131072x16x1 ![0, 1] bcast_S131072x16_S131072x16x1_0_1 main_v80
  let main_cst_29 : FVec F S_ .f32 := constant S_ .f32 0x00000000#32
  let main_v82 : FVec F S131072x16x1 .f32 := broadcastInDim S131072x16x1 ![] bcast_S_S131072x16x1 main_cst_29
  let main_v83 : IVec S131072x16x1 1 := cmpf .une main_v81 main_v82
  let main_c_30 : IVec S_ 1 := constantI S_ 1 1#1
  let main_v84 : IVec S_ 1 := (fun x v => Host.reduce IntOp.andi x v reducesTo_S131072x16x1_S_d0_1_2 h_S_) main_v83 main_c_30
  let main_v85 : IVec S_ 1 := andi main_v77 main_v84
  let main_v86 : FVec F S131072x16x16 .f32 := broadcastInDim S131072x16x16 ![0, 1, 2] bcast_S131072x16x1_S131072x16x16_0_1_2 main_v81
  fn_part5 (F := F) main_v79 main_v85 main_v86

def fn_part3 {F : FTy → Type} [FloatOps F] (main_v45 : IVec S_ 1) (main_v47 : FVec F S131072x16x16 .f32) (main_v49 : FVec F S131072x16x1 .f32) (main_v51 : IVec S131072x16x1 1) : IVec S_ 1 :=
  let main_c_18 : IVec S_ 1 := constantI S_ 1 1#1
  let main_v52 : IVec S_ 1 := (fun x v => Host.reduce IntOp.andi x v reducesTo_S131072x16x1_S_d0_1_2 h_S_) main_v51 main_c_18
  let main_v53 : IVec S_ 1 := andi main_v45 main_v52
  let main_v54 : FVec F S131072x16x16 .f32 := broadcastInDim S131072x16x16 ![0, 1, 2] bcast_S131072x16x1_S131072x16x16_0_1_2 main_v49
  let main_v55 : FVec F S131072x16x16 .f32 := Host.divf main_v47 main_v54
  let main_cst_19 : FVec F S_ .f32 := constant S_ .f32 0x00000000#32
  let main_v56 : FVec F S131072x16 .f32 := (fun x v => Host.reduceAdd x v reducesTo_S131072x16x16_S131072x16_d1 h_S_) main_v55 main_cst_19
  let main_v57 : FVec F S131072x1x16 .f32 := broadcastInDim S131072x1x16 ![0, 2] bcast_S131072x16_S131072x1x16_0_2 main_v56
  let main_cst_20 : FVec F S_ .f32 := constant S_ .f32 0x00000000#32
  let main_v58 : FVec F S131072x1x16 .f32 := broadcastInDim S131072x1x16 ![] bcast_S_S131072x1x16 main_cst_20
  let main_v59 : IVec S131072x1x16 1 := cmpf .une main_v57 main_v58
  let main_c_21 : IVec S_ 1 := constantI S_ 1 1#1
  let main_v60 : IVec S_ 1 := (fun x v => Host.reduce IntOp.andi x v reducesTo_S131072x1x16_S_d0_1_2 h_S_) main_v59 main_c_21
  let main_v61 : IVec S_ 1 := andi main_v53 main_v60
  let main_v62 : FVec F S131072x16x16 .f32 := broadcastInDim S131072x16x16 ![0, 1, 2] bcast_S131072x1x16_S131072x16x16_0_1_2 main_v57
  let main_v63 : FVec F S131072x16x16 .f32 := Host.divf main_v55 main_v62
  let main_cst_22 : FVec F S_ .f32 := constant S_ .f32 0x00000000#32
  let main_v64 : FVec F S131072x16 .f32 := (fun x v => Host.reduceAdd x v reducesTo_S131072x16x16_S131072x16_d2 h_S_) main_v63 main_cst_22
  let main_v65 : FVec F S131072x16x1 .f32 := broadcastInDim S131072x16x1 ![0, 1] bcast_S131072x16_S131072x16x1_0_1 main_v64
  let main_cst_23 : FVec F S_ .f32 := constant S_ .f32 0x00000000#32
  let main_v66 : FVec F S131072x16x1 .f32 := broadcastInDim S131072x16x1 ![] bcast_S_S131072x16x1 main_cst_23
  let main_v67 : IVec S131072x16x1 1 := cmpf .une main_v65 main_v66
  let main_c_24 : IVec S_ 1 := constantI S_ 1 1#1
  let main_v68 : IVec S_ 1 := (fun x v => Host.reduce IntOp.andi x v reducesTo_S131072x16x1_S_d0_1_2 h_S_) main_v67 main_c_24
  fn_part4 (F := F) main_v61 main_v63 main_v65 main_v68

def fn_part2 {F : FTy → Type} [FloatOps F] (main_v29 : IVec S_ 1) (main_v31 : FVec F S131072x16x16 .f32) (main_v33 : FVec F S131072x16x1 .f32) (main_cst_11 : FVec F S_ .f32) : IVec S_ 1 :=
  let main_v34 : FVec F S131072x16x1 .f32 := broadcastInDim S131072x16x1 ![] bcast_S_S131072x16x1 main_cst_11
  let main_v35 : IVec S131072x16x1 1 := cmpf .une main_v33 main_v34
  let main_c_12 : IVec S_ 1 := constantI S_ 1 1#1
  let main_v36 : IVec S_ 1 := (fun x v => Host.reduce IntOp.andi x v reducesTo_S131072x16x1_S_d0_1_2 h_S_) main_v35 main_c_12
  let main_v37 : IVec S_ 1 := andi main_v29 main_v36
  let main_v38 : FVec F S131072x16x16 .f32 := broadcastInDim S131072x16x16 ![0, 1, 2] bcast_S131072x16x1_S131072x16x16_0_1_2 main_v33
  let main_v39 : FVec F S131072x16x16 .f32 := Host.divf main_v31 main_v38
  let main_cst_13 : FVec F S_ .f32 := constant S_ .f32 0x00000000#32
  let main_v40 : FVec F S131072x16 .f32 := (fun x v => Host.reduceAdd x v reducesTo_S131072x16x16_S131072x16_d1 h_S_) main_v39 main_cst_13
  let main_v41 : FVec F S131072x1x16 .f32 := broadcastInDim S131072x1x16 ![0, 2] bcast_S131072x16_S131072x1x16_0_2 main_v40
  let main_cst_14 : FVec F S_ .f32 := constant S_ .f32 0x00000000#32
  let main_v42 : FVec F S131072x1x16 .f32 := broadcastInDim S131072x1x16 ![] bcast_S_S131072x1x16 main_cst_14
  let main_v43 : IVec S131072x1x16 1 := cmpf .une main_v41 main_v42
  let main_c_15 : IVec S_ 1 := constantI S_ 1 1#1
  let main_v44 : IVec S_ 1 := (fun x v => Host.reduce IntOp.andi x v reducesTo_S131072x1x16_S_d0_1_2 h_S_) main_v43 main_c_15
  let main_v45 : IVec S_ 1 := andi main_v37 main_v44
  let main_v46 : FVec F S131072x16x16 .f32 := broadcastInDim S131072x16x16 ![0, 1, 2] bcast_S131072x1x16_S131072x16x16_0_1_2 main_v41
  let main_v47 : FVec F S131072x16x16 .f32 := Host.divf main_v39 main_v46
  let main_cst_16 : FVec F S_ .f32 := constant S_ .f32 0x00000000#32
  let main_v48 : FVec F S131072x16 .f32 := (fun x v => Host.reduceAdd x v reducesTo_S131072x16x16_S131072x16_d2 h_S_) main_v47 main_cst_16
  let main_v49 : FVec F S131072x16x1 .f32 := broadcastInDim S131072x16x1 ![0, 1] bcast_S131072x16_S131072x16x1_0_1 main_v48
  let main_cst_17 : FVec F S_ .f32 := constant S_ .f32 0x00000000#32
  let main_v50 : FVec F S131072x16x1 .f32 := broadcastInDim S131072x16x1 ![] bcast_S_S131072x16x1 main_cst_17
  let main_v51 : IVec S131072x16x1 1 := cmpf .une main_v49 main_v50
  fn_part3 (F := F) main_v45 main_v47 main_v49 main_v51

def fn_part1 {F : FTy → Type} [FloatOps F] (main_v13 : IVec S_ 1) (main_v15 : FVec F S131072x16x16 .f32) (main_v16 : FVec F S131072x16 .f32) : IVec S_ 1 :=
  let main_v17 : FVec F S131072x16x1 .f32 := broadcastInDim S131072x16x1 ![0, 1] bcast_S131072x16_S131072x16x1_0_1 main_v16
  let main_cst_5 : FVec F S_ .f32 := constant S_ .f32 0x00000000#32
  let main_v18 : FVec F S131072x16x1 .f32 := broadcastInDim S131072x16x1 ![] bcast_S_S131072x16x1 main_cst_5
  let main_v19 : IVec S131072x16x1 1 := cmpf .une main_v17 main_v18
  let main_c_6 : IVec S_ 1 := constantI S_ 1 1#1
  let main_v20 : IVec S_ 1 := (fun x v => Host.reduce IntOp.andi x v reducesTo_S131072x16x1_S_d0_1_2 h_S_) main_v19 main_c_6
  let main_v21 : IVec S_ 1 := andi main_v13 main_v20
  let main_v22 : FVec F S131072x16x16 .f32 := broadcastInDim S131072x16x16 ![0, 1, 2] bcast_S131072x16x1_S131072x16x16_0_1_2 main_v17
  let main_v23 : FVec F S131072x16x16 .f32 := Host.divf main_v15 main_v22
  let main_cst_7 : FVec F S_ .f32 := constant S_ .f32 0x00000000#32
  let main_v24 : FVec F S131072x16 .f32 := (fun x v => Host.reduceAdd x v reducesTo_S131072x16x16_S131072x16_d1 h_S_) main_v23 main_cst_7
  let main_v25 : FVec F S131072x1x16 .f32 := broadcastInDim S131072x1x16 ![0, 2] bcast_S131072x16_S131072x1x16_0_2 main_v24
  let main_cst_8 : FVec F S_ .f32 := constant S_ .f32 0x00000000#32
  let main_v26 : FVec F S131072x1x16 .f32 := broadcastInDim S131072x1x16 ![] bcast_S_S131072x1x16 main_cst_8
  let main_v27 : IVec S131072x1x16 1 := cmpf .une main_v25 main_v26
  let main_c_9 : IVec S_ 1 := constantI S_ 1 1#1
  let main_v28 : IVec S_ 1 := (fun x v => Host.reduce IntOp.andi x v reducesTo_S131072x1x16_S_d0_1_2 h_S_) main_v27 main_c_9
  let main_v29 : IVec S_ 1 := andi main_v21 main_v28
  let main_v30 : FVec F S131072x16x16 .f32 := broadcastInDim S131072x16x16 ![0, 1, 2] bcast_S131072x1x16_S131072x16x16_0_1_2 main_v25
  let main_v31 : FVec F S131072x16x16 .f32 := Host.divf main_v23 main_v30
  let main_cst_10 : FVec F S_ .f32 := constant S_ .f32 0x00000000#32
  let main_v32 : FVec F S131072x16 .f32 := (fun x v => Host.reduceAdd x v reducesTo_S131072x16x16_S131072x16_d2 h_S_) main_v31 main_cst_10
  let main_v33 : FVec F S131072x16x1 .f32 := broadcastInDim S131072x16x1 ![0, 1] bcast_S131072x16_S131072x16x1_0_1 main_v32
  let main_cst_11 : FVec F S_ .f32 := constant S_ .f32 0x00000000#32
  fn_part2 (F := F) main_v29 main_v31 main_v33 main_cst_11

def fn {F : FTy → Type} [FloatOps F] (main_arg0 : FVec F S131072x256 .f32) : IVec S_ 1 :=
  let main_v0 : FVec F S131072x256 .f32 := Host.absf main_arg0
  let main_cst : FVec F S_ .f32 := constant S_ .f32 0x7F800000#32
  let main_v1 : FVec F S131072x256 .f32 := broadcastInDim S131072x256 ![] bcast_S_S131072x256 main_cst
  let main_v2 : IVec S131072x256 1 := cmpf .olt main_v0 main_v1
  let main_c : IVec S_ 1 := constantI S_ 1 1#1
  let main_v3 : IVec S_ 1 := (fun x v => Host.reduce IntOp.andi x v reducesTo_S131072x256_S_d0_1 h_S_) main_v2 main_c
  let main_v4 : FVec F S131072x16x16 .f32 := shapeCast S131072x16x16 main_arg0 shapeCasts_S131072x256_S131072x16x16
  let main_v5 : FVec F S131072x16x16 .f32 := (transpose S131072x16x16 [0, 2, 1] · transposes_S131072x16x16_S131072x16x16_0_2_1) main_v4
  let main_cst_0 : FVec F S_ .f32 := constant S_ .f32 0x358637BD#32
  let main_v6 : FVec F S131072x16x16 .f32 := broadcastInDim S131072x16x16 ![] bcast_S_S131072x16x16 main_cst_0
  let main_v7 : FVec F S131072x16x16 .f32 := addf main_v5 main_v6
  let main_cst_1 : FVec F S_ .f32 := constant S_ .f32 0x00000000#32
  let main_v8 : FVec F S131072x16 .f32 := (fun x v => Host.reduceAdd x v reducesTo_S131072x16x16_S131072x16_d1 h_S_) main_v7 main_cst_1
  let main_v9 : FVec F S131072x1x16 .f32 := broadcastInDim S131072x1x16 ![0, 2] bcast_S131072x16_S131072x1x16_0_2 main_v8
  let main_cst_2 : FVec F S_ .f32 := constant S_ .f32 0x00000000#32
  let main_v10 : FVec F S131072x1x16 .f32 := broadcastInDim S131072x1x16 ![] bcast_S_S131072x1x16 main_cst_2
  let main_v11 : IVec S131072x1x16 1 := cmpf .une main_v9 main_v10
  let main_c_3 : IVec S_ 1 := constantI S_ 1 1#1
  let main_v12 : IVec S_ 1 := (fun x v => Host.reduce IntOp.andi x v reducesTo_S131072x1x16_S_d0_1_2 h_S_) main_v11 main_c_3
  let main_v13 : IVec S_ 1 := andi main_v3 main_v12
  let main_v14 : FVec F S131072x16x16 .f32 := broadcastInDim S131072x16x16 ![0, 1, 2] bcast_S131072x1x16_S131072x16x16_0_1_2 main_v9
  let main_v15 : FVec F S131072x16x16 .f32 := Host.divf main_v7 main_v14
  let main_cst_4 : FVec F S_ .f32 := constant S_ .f32 0x00000000#32
  let main_v16 : FVec F S131072x16 .f32 := (fun x v => Host.reduceAdd x v reducesTo_S131072x16x16_S131072x16_d2 h_S_) main_v15 main_cst_4
  fn_part1 (F := F) main_v13 main_v15 main_v16
-- ==== Kernel.lean ====
abbrev S131072x256 : Shape := ⟨2, ![131072, 256]⟩
abbrev S4096x256 : Shape := ⟨2, ![4096, 256]⟩
abbrev S128x256 : Shape := ⟨2, ![128, 256]⟩
abbrev S128x16x16 : Shape := ⟨3, ![128, 16, 16]⟩
abbrev S128x16 : Shape := ⟨2, ![128, 16]⟩
abbrev S128x1x16 : Shape := ⟨3, ![128, 1, 16]⟩
abbrev S128x16x1 : Shape := ⟨3, ![128, 16, 1]⟩
abbrev S131072x16x16 : Shape := ⟨3, ![131072, 16, 16]⟩

abbrev nBuf : Space → Nat
  | .hbm => 3
  | .vmem => 4
  | .smem => 0
  | _ => 0

abbrev bufTy : (tb : Table) → Fin (tcTables nBuf tb) → BufTy
  | .hbm, ⟨0, _⟩ => ⟨S131072x256, .f32⟩
  | .hbm, ⟨1, _⟩ => ⟨S131072x256, .f32⟩
  | .hbm, ⟨2, _⟩ => ⟨S131072x16x16, .f32⟩
  | .local _ .vmem, ⟨0, _⟩ => ⟨S4096x256, .f32⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | _, _ => ⟨S131072x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  v1
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let c128_i32 : BitVec 32 := 128#32
  let v1 : BitVec 32 := Scalar.muli arg3 c128_i32
  let v2 : BitVec 32 := v1
  let v3 : Index := Scalar.indexCast v2
  let c0 : Index := 0#32
  ![v3.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  h_S128x256 : 0 < S128x256.numel
  shapeCasts_S128x256_S128x16x16 : S128x256.ShapeCasts S128x16x16
  transposes_S128x16x16_p0_2_1_S128x16x16 : S128x16x16.Transposes [0, 2, 1] S128x16x16
  reduces_S128x16x16_S128x16 : S128x16x16.Reduces [1] S128x16
  shapeCasts_S128x16_S128x1x16 : S128x16.ShapeCasts S128x1x16
  broadcasts_S128x1x16_S128x16x16 : S128x1x16.Broadcasts S128x16x16
  reduces_S128x16x16_S128x16_2 : S128x16x16.Reduces [2] S128x16
  shapeCasts_S128x16_S128x16x1 : S128x16.ShapeCasts S128x16x1
  broadcasts_S128x16x1_S128x16x16 : S128x16x1.Broadcasts S128x16x16
  shapeCasts_S128x16x16_S128x256 : S128x16x16.ShapeCasts S128x256
  shapeCasts_S131072x256_S131072x16x16 : S131072x256.ShapeCasts S131072x16x16
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x256.size a ≤ S4096x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S131072x256.size a
  hwx0_0 : ∀ i : grid0.Coords, EltTy.bits .f32 = 32 ∨ (Rect.block (s := S131072x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x256.size a ≤ S131072x256.size a
  hwx0_1 : ∀ i : grid0.Coords, EltTy.bits .f32 = 32 ∨ (Rect.block (s := S131072x256) S4096x256.size (cc0_transform_1 i) (hinb0_1 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S131072x256 : Shape := ⟨2, ![131072, 256]⟩
abbrev S131072x16x16 : Shape := ⟨3, ![131072, 16, 16]⟩
abbrev S_ : Shape := ⟨0, ![]⟩
abbrev S131072x16 : Shape := ⟨2, ![131072, 16]⟩
abbrev S131072x1x16 : Shape := ⟨3, ![131072, 1, 16]⟩
abbrev S131072x16x1 : Shape := ⟨3, ![131072, 16, 1]⟩

abbrev nBuf : Space → Nat
  | .hbm => 106
  | .vmem => 0
  | .smem => 0
  | _ => 0

abbrev bufTy : (tb : Table) → Fin (tcTables nBuf tb) → BufTy
  | .hbm, ⟨0, _⟩ => ⟨S131072x256, .f32⟩
  | .hbm, ⟨1, _⟩ => ⟨S131072x16x16, .f32⟩
  | .hbm, ⟨2, _⟩ => ⟨S131072x16x16, .f32⟩
  | .hbm, ⟨3, _⟩ => ⟨S_, .f32⟩
  | .hbm, ⟨4, _⟩ => ⟨S131072x16x16, .f32⟩
  | .hbm, ⟨5, _⟩ => ⟨S131072x16x16, .f32⟩
  | .hbm, ⟨6, _⟩ => ⟨S_, .f32⟩
  | .hbm, ⟨7, _⟩ => ⟨S131072x16, .f32⟩
  | .hbm, ⟨8, _⟩ => ⟨S131072x1x16, .f32⟩
  | .hbm, ⟨9, _⟩ => ⟨S131072x16x16, .f32⟩
  | .hbm, ⟨10, _⟩ => ⟨S131072x16x16, .f32⟩
  | .hbm, ⟨11, _⟩ => ⟨S_, .f32⟩
  | .hbm, ⟨12, _⟩ => ⟨S131072x16, .f32⟩
  | .hbm, ⟨13, _⟩ => ⟨S131072x16x1, .f32⟩
  | .hbm, ⟨14, _⟩ => ⟨S131072x16x16, .f32⟩
  | .hbm, ⟨15, _⟩ => ⟨S131072x16x16, .f32⟩
  | .hbm, ⟨16, _⟩ => ⟨S_, .f32⟩
  | .hbm, ⟨17, _⟩ => ⟨S131072x16, .f32⟩
  | .hbm, ⟨18, _⟩ => ⟨S131072x1x16, .f32⟩
  | .hbm, ⟨19, _⟩ => ⟨S131072x16x16, .f32⟩
  | .hbm, ⟨20, _⟩ => ⟨S131072x16x16, .f32⟩
  | .hbm, ⟨21, _⟩ => ⟨S_, .f32⟩
  | .hbm, ⟨22, _⟩ => ⟨S131072x16, .f32⟩
  | .hbm, ⟨23, _⟩ => ⟨S131072x16x1, .f32⟩
  | .hbm, ⟨24, _⟩ => ⟨S131072x16x16, .f32⟩
  | .hbm, ⟨25, _⟩ => ⟨S131072x16x16, .f32⟩
  | .hbm, ⟨26, _⟩ => ⟨S_, .f32⟩
  | .hbm, ⟨27, _⟩ => ⟨S131072x16, .f32⟩
  | .hbm, ⟨28, _⟩ => ⟨S131072x1x16, .f32⟩
  | .hbm, ⟨29, _⟩ => ⟨S131072x16x16, .f32⟩
  | .hbm, ⟨30, _⟩ => ⟨S131072x16x16, .f32⟩
  | .hbm, ⟨31, _⟩ => ⟨S_, .f32⟩
  | .hbm, ⟨32, _⟩ => ⟨S131072x16, .f32⟩
  | .hbm, ⟨33, _⟩ => ⟨S131072x16x1, .f32⟩
  | .hbm, ⟨34, _⟩ => ⟨S131072x16x16, .f32⟩
  | .hbm, ⟨35, _⟩ => ⟨S131072x16x16, .f32⟩
  | .hbm, ⟨36, _⟩ => ⟨S_, .f32⟩
  | .hbm, ⟨37, _⟩ => ⟨S131072x16, .f32⟩
  | .hbm, ⟨38, _⟩ => ⟨S131072x1x16, .f32⟩
  | .hbm, ⟨39, _⟩ => ⟨S131072x16x16, .f32⟩
  | .hbm, ⟨40, _⟩ => ⟨S131072x16x16, .f32⟩
  | .hbm, ⟨41, _⟩ => ⟨S_, .f32⟩
  | .hbm, ⟨42, _⟩ => ⟨S131072x16, .f32⟩
  | .hbm, ⟨43, _⟩ => ⟨S131072x16x1, .f32⟩
  | .hbm, ⟨44, _⟩ => ⟨S131072x16x16, .f32⟩
  | .hbm, ⟨45, _⟩ => ⟨S131072x16x16, .f32⟩
  | .hbm, ⟨46, _⟩ => ⟨S_, .f32⟩
  | .hbm, ⟨47, _⟩ => ⟨S131072x16, .f32⟩
  | .hbm, ⟨48, _⟩ => ⟨S131072x1x16, .f32⟩
  | .hbm, ⟨49, _⟩ => ⟨S131072x16x16, .f32⟩
  | .hbm, ⟨50, _⟩ => ⟨S131072x16x16, .f32⟩
  | .hbm, ⟨51, _⟩ => ⟨S_, .f32⟩
  | .hbm, ⟨52, _⟩ => ⟨S131072x16, .f32⟩
  | .hbm, ⟨53, _⟩ => ⟨S131072x16x1, .f32⟩
  | .hbm, ⟨54, _⟩ => ⟨S131072x16x16, .f32⟩
  | .hbm, ⟨55, _⟩ => ⟨S131072x16x16, .f32⟩
  | .hbm, ⟨56, _⟩ => ⟨S_, .f32⟩
  | .hbm, ⟨57, _⟩ => ⟨S131072x16, .f32⟩
  | .hbm, ⟨58, _⟩ => ⟨S131072x1x16, .f32⟩
  | .hbm, ⟨59, _⟩ => ⟨S131072x16x16, .f32⟩
  | .hbm, ⟨60, _⟩ => ⟨S131072x16x16, .f32⟩
  | .hbm, ⟨61, _⟩ => ⟨S_, .f32⟩
  | .hbm, ⟨62, _⟩ => ⟨S131072x16, .f32⟩
  | .hbm, ⟨63, _⟩ => ⟨S131072x16x1, .f32⟩
  | .hbm, ⟨64, _⟩ => ⟨S131072x16x16, .f32⟩
  | .hbm, ⟨65, _⟩ => ⟨S131072x16x16, .f32⟩
  | .hbm, ⟨66, _⟩ => ⟨S_, .f32⟩
  | .hbm, ⟨67, _⟩ => ⟨S131072x16, .f32⟩
  | .hbm, ⟨68, _⟩ => ⟨S131072x1x16, .f32⟩
  | .hbm, ⟨69, _⟩ => ⟨S131072x16x16, .f32⟩
  | .hbm, ⟨70, _⟩ => ⟨S131072x16x16, .f32⟩
  | .hbm, ⟨71, _⟩ => ⟨S_, .f32⟩
  | .hbm, ⟨72, _⟩ => ⟨S131072x16, .f32⟩
  | .hbm, ⟨73, _⟩ => ⟨S131072x16x1, .f32⟩
  | .hbm, ⟨74, _⟩ => ⟨S131072x16x16, .f32⟩
  | .hbm, ⟨75, _⟩ => ⟨S131072x16x16, .f32⟩
  | .hbm, ⟨76, _⟩ => ⟨S_, .f32⟩
  | .hbm, ⟨77, _⟩ => ⟨S131072x16, .f32⟩
  | .hbm, ⟨78, _⟩ => ⟨S131072x1x16, .f32⟩
  | .hbm, ⟨79, _⟩ => ⟨S131072x16x16, .f32⟩
  | .hbm, ⟨80, _⟩ => ⟨S131072x16x16, .f32⟩
  | .hbm, ⟨81, _⟩ => ⟨S_, .f32⟩
  | .hbm, ⟨82, _⟩ => ⟨S131072x16, .f32⟩
  | .hbm, ⟨83, _⟩ => ⟨S131072x16x1, .f32⟩
  | .hbm, ⟨84, _⟩ => ⟨S131072x16x16, .f32⟩
  | .hbm, ⟨85, _⟩ => ⟨S131072x16x16, .f32⟩
  | .hbm, ⟨86, _⟩ => ⟨S_, .f32⟩
  | .hbm, ⟨87, _⟩ => ⟨S131072x16, .f32⟩
  | .hbm, ⟨88, _⟩ => ⟨S131072x1x16, .f32⟩
  | .hbm, ⟨89, _⟩ => ⟨S131072x16x16, .f32⟩
  | .hbm, ⟨90, _⟩ => ⟨S131072x16x16, .f32⟩
  | .hbm, ⟨91, _⟩ => ⟨S_, .f32⟩
  | .hbm, ⟨92, _⟩ => ⟨S131072x16, .f32⟩
  | .hbm, ⟨93, _⟩ => ⟨S131072x16x1, .f32⟩
  | .hbm, ⟨94, _⟩ => ⟨S131072x16x16, .f32⟩
  | .hbm, ⟨95, _⟩ => ⟨S131072x16x16, .f32⟩
  | .hbm, ⟨96, _⟩ => ⟨S_, .f32⟩
  | .hbm, ⟨97, _⟩ => ⟨S131072x16, .f32⟩
  | .hbm, ⟨98, _⟩ => ⟨S131072x1x16, .f32⟩
  | .hbm, ⟨99, _⟩ => ⟨S131072x16x16, .f32⟩
  | .hbm, ⟨100, _⟩ => ⟨S131072x16x16, .f32⟩
  | .hbm, ⟨101, _⟩ => ⟨S_, .f32⟩
  | .hbm, ⟨102, _⟩ => ⟨S131072x16, .f32⟩
  | .hbm, ⟨103, _⟩ => ⟨S131072x16x1, .f32⟩
  | .hbm, ⟨104, _⟩ => ⟨S131072x16x16, .f32⟩
  | .hbm, ⟨105, _⟩ => ⟨S131072x16x16, .f32⟩
  | _, _ => ⟨S131072x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_2 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_5 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_6 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_7 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_8 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_9 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_10 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_11 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_cst_12 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_13 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_14 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_15 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_16 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_cst_17 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_cst_18 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_cst_19 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩

abbrev nD : Nat := 1
abbrev τ : Topo := Topo.v7x

variable {F : FTy → Type} [FloatOps F]

class Facts₀ : Prop where
  shapeCasts_S131072x256_S131072x16x16 : S131072x256.ShapeCasts S131072x16x16
  transposes_S131072x16x16_S131072x16x16_0_2_1 : S131072x16x16.Transposes [0, 2, 1] S131072x16x16
  bcast_S_S131072x16x16 : S_.BroadcastsInDim S131072x16x16 (![] : Fin 0 → Fin S131072x16x16.rank)
  reducesTo_S131072x16x16_S131072x16_d1 : S131072x16x16.ReducesTo [1] S131072x16
  h_S_ : 0 < S_.numel
  bcast_S131072x16_S131072x1x16_0_2 : S131072x16.BroadcastsInDim S131072x1x16 (![0, 2] : Fin 2 → Fin S131072x1x16.rank)
  bcast_S131072x1x16_S131072x16x16_0_1_2 : S131072x1x16.BroadcastsInDim S131072x16x16 (![0, 1, 2] : Fin 3 → Fin S131072x16x16.rank)
  reducesTo_S131072x16x16_S131072x16_d2 : S131072x16x16.ReducesTo [2] S131072x16
  bcast_S131072x16_S131072x16x1_0_1 : S131072x16.BroadcastsInDim S131072x16x1 (![0, 1] : Fin 2 → Fin S131072x16x1.rank)
  bcast_S131072x16x1_S131072x16x16_0_1_2 : S131072x16x1.BroadcastsInDim S131072x16x16 (![0, 1, 2] : Fin 3 → Fin S131072x16x16.rank)

variable [Facts₀]

class Facts : Prop extends Facts₀ where

variable [Facts]
-- ==== Proof.Sinkhorn.lean ====
/-
  The mathematics of this certificate, with no program in sight: ten passes of alternating column and row
  normalisation of one 16 x 16 matrix over the extended reals, in two arrangements.

  A pass first divides every entry by the sum of its column, then every entry by the sum of its row.  One program
  divides (x / c); the other multiplies by the reciprocal (x * (1 / c)).  On the extended reals these agree whenever
  the divisor c is not zero -- also when c or x is infinite -- and they disagree at x = 0 = c, where the quotient
  0 / 0 is the bottom element while the product 0 * (1 / 0) = 0 * top is zero.  So the two arrangements of the whole
  chain are equal on the matrices at which none of the dividing arrangement's twenty divisors vanishes
  (`Regular`), and that is all that is used: no entry needs to be finite.
-/
import Idealize.ShloMosaic.Lib.IdealHost

noncomputable section

namespace Cert.Sinkhorn

open Idealize.ShloMosaic
open scoped BigOperators

/-- A 16 x 16 matrix of extended reals, entry (i, j) in row i and column j. -/
abbrev Mat := Fin 16 → Fin 16 → EReal

/-- The sum of column j (over the row index). -/
def colSum (X : Mat) (j : Fin 16) : EReal := ∑ i, X i j
/-- The sum of row i (over the column index). -/
def rowSum (X : Mat) (i : Fin 16) : EReal := ∑ j, X i j

/-- Every entry divided by its column's sum. -/
def colDiv (X : Mat) : Mat := fun i j => Ideal.div (X i j) (colSum X j)
/-- Every entry divided by its row's sum. -/
def rowDiv (X : Mat) : Mat := fun i j => Ideal.div (X i j) (rowSum X i)
/-- Every entry multiplied by the reciprocal of its column's sum. -/
def colMul (X : Mat) : Mat := fun i j => X i j * Ideal.div 1 (colSum X j)
/-- Every entry multiplied by the reciprocal of its row's sum. -/
def rowMul (X : Mat) : Mat := fun i j => X i j * Ideal.div 1 (rowSum X i)

/-- One pass, dividing: columns, then rows. -/
def divPass (X : Mat) : Mat := rowDiv (colDiv X)
/-- One pass, multiplying by reciprocals: columns, then rows. -/
def mulPass (X : Mat) : Mat := rowMul (colMul X)

/-- n passes, dividing. -/
def divChain (n : ℕ) (X : Mat) : Mat := divPass^[n] X
/-- n passes, multiplying by reciprocals. -/
def mulChain (n : ℕ) (X : Mat) : Mat := mulPass^[n] X

/-- The matrix the chain starts from, made of one row of 256 numbers: entry (i, j) is the number at position
    16 j + i (the row read as a 16 x 16 matrix and transposed) plus the constant eps, the value of the single-precision
    word 0x358637BD (about 1e-6). -/
def start (row : Fin 256 → EReal) : Mat :=
  fun i j => row ⟨16 * j.val + i.val, by have := i.isLt; have := j.isLt; omega⟩ + Ideal.ofBits .f32 0x358637BD#32

/-- None of the dividing chain's first 2 n divisors is zero: in each of the n passes no column sum of the matrix
    the pass starts from vanishes, and no row sum of that matrix with its columns divided. -/
def Regular : ℕ → Mat → Prop
  | 0, _ => True
  | n + 1, X => (∀ j, colSum X j ≠ 0) ∧ (∀ i, rowSum (colDiv X) i ≠ 0) ∧ Regular n (divPass X)

theorem colMul_eq_colDiv {X : Mat} (h : ∀ j, colSum X j ≠ 0) : colMul X = colDiv X :=
  funext fun i => funext fun j => Ideal.mul_one_div (h j)

theorem rowMul_eq_rowDiv {X : Mat} (h : ∀ i, rowSum X i ≠ 0) : rowMul X = rowDiv X :=
  funext fun i => funext fun _ => Ideal.mul_one_div (h i)

/-- Where the dividing chain's divisors do not vanish, multiplying by reciprocals gives the same matrix, pass after
    pass: each column step agrees because the column sums are nonzero, so the two arrangements enter the row step
    with the same matrix, whose row sums are nonzero. -/
theorem mulChain_eq_divChain : ∀ (n : ℕ) (X : Mat), Regular n X → mulChain n X = divChain n X
  | 0, _, _ => rfl
  | n + 1, X, ⟨hc, hr, hrest⟩ => by
    have hpass : mulPass X = divPass X := by
      unfold mulPass divPass
      rw [colMul_eq_colDiv hc, rowMul_eq_rowDiv hr]
    show mulPass^[n + 1] X = divPass^[n + 1] X
    rw [Function.iterate_succ_apply, Function.iterate_succ_apply, hpass]
    exact mulChain_eq_divChain n (divPass X) hrest

end Cert.Sinkhorn

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibPairLayout.lean ====
/-
  Reusable lemmas: the layout operations of a pairwise (outer) combination of two row blocks, read at an entry.

  A kernel that combines every row i of an [a, c] block with every row k of a [b, c] block builds the [a, b, c] array
  of pairs by inserting a unit axis ([a, c] → [a, 1, c], [b, c] → [1, b, c]) and broadcasting along it; flattens the
  pairs to the rows r = i·b + k of an [a·b, c] matrix for a matrix product and back; lays a [c] vector along every pair
  ([c] → [1, 1, c] → [a, b, c]); reads a [c, 1] column as a [c] vector; and sums over the last axis.  Each lemma reads
  one such operation at an entry written by its coordinates.  Generic in the extents and in the element type.
-/
import Idealize.ShloMosaic.Lib.Pipeline.Value
import Idealize.ShloMosaic.Lib.ValueIdx
import Idealize.ShloMosaic.PureOps.Ideal.Laws

noncomputable section

namespace Cert.PairLayout

open Idealize.ShloMosaic Idealize.ShloMosaic.ValueIdx

variable {α : Type} {a b c n : ℕ}

/-- An [a, c] array viewed [a, 1, c] reads, at (i, u, j), the operand at (i, j). -/
theorem shapeCast_ac_a1c_apply (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- An [a, 1, c] array broadcast to [a, b, c] reads, at (i, k, j), the operand at (i, 0, j). -/
theorem broadcastTo_a1c_abc_apply (x : (⟨3, ![a, 1, c]⟩ : Shape).Idx → α)
    (h : (⟨3, ![a, 1, c]⟩ : Shape).Broadcasts ⟨3, ![a, b, c]⟩) (i : Fin a) (k : Fin b) (j : Fin c) :
    broadcastTo ⟨3, ![a, b, c]⟩ x h (ix3 i k j) = x (ix3 i (0 : Fin 1) j) := by
  refine broadcastTo_apply x h (ix3 i k j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if c = 1 then 0 else j.val
    split
    · have := j.isLt; omega
    · rfl

/-- A [1, b, c] array broadcast to [a, b, c] reads, at (i, k, j), the operand at (0, k, j). -/
theorem broadcastTo_1bc_abc_apply (x : (⟨3, ![1, b, c]⟩ : Shape).Idx → α)
    (h : (⟨3, ![1, b, c]⟩ : Shape).Broadcasts ⟨3, ![a, b, c]⟩) (i : Fin a) (k : Fin b) (j : Fin c) :
    broadcastTo ⟨3, ![a, b, c]⟩ x h (ix3 i k j) = x (ix3 (0 : Fin 1) k j) := by
  refine broadcastTo_apply x h (ix3 i k j) (ix3 (0 : Fin 1) k j) fun ax => ?_
  match ax with
  | ⟨0, _⟩ => rfl
  | ⟨1, _⟩ =>
    show k.val = if b = 1 then 0 else k.val
    split
    · have := k.isLt; omega
    · rfl
  | ⟨2, _⟩ =>
    show j.val = if c = 1 then 0 else j.val
    split
    · have := j.isLt; omega
    · rfl

/-- A [1, 1, c] array broadcast to [a, b, c] reads, at (i, k, j), the operand at (0, 0, j). -/
theorem broadcastTo_11c_abc_apply (x : (⟨3, ![1, 1, c]⟩ : Shape).Idx → α)
    (h : (⟨3, ![1, 1, c]⟩ : Shape).Broadcasts ⟨3, ![a, b, c]⟩) (i : Fin a) (k : Fin b) (j : Fin c) :
    broadcastTo ⟨3, ![a, b, c]⟩ x h (ix3 i k j) = x (ix3 (0 : Fin 1) (0 : Fin 1) j) := by
  refine broadcastTo_apply x h (ix3 i k j) (ix3 (0 : Fin 1) (0 : Fin 1) j) fun ax => ?_
  match ax with
  | ⟨0, _⟩ => rfl
  | ⟨1, _⟩ => rfl
  | ⟨2, _⟩ =>
    show j.val = if c = 1 then 0 else j.val
    split
    · have := j.isLt; omega
    · rfl

/-- A [c] vector viewed [1, 1, c] reads, at (u, v, j), the operand at j. -/
theorem shapeCast_c_11c_apply (x : (⟨1, ![c]⟩ : Shape).Idx → α)
    (h : (⟨1, ![c]⟩ : Shape).ShapeCasts ⟨3, ![1, 1, c]⟩) (u v : Fin 1) (j : Fin c) :
    shapeCast ⟨3, ![1, 1, c]⟩ x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * c + j.val
    simp only [hu, hv, Nat.zero_mul, Nat.zero_add, Nat.mul_one, Nat.add_zero])

/-- A [c, 1] column viewed as a [c] vector reads, at j, the operand at (j, 0). -/
theorem shapeCast_c1_c_apply (x : (⟨2, ![c, 1]⟩ : Shape).Idx → α)
    (h : (⟨2, ![c, 1]⟩ : Shape).ShapeCasts ⟨1, ![c]⟩) (j : Fin c) :
    shapeCast ⟨1, ![c]⟩ x h (ix1 j) = x (ix2 j (0 : Fin 1)) :=
  shapeCast_apply x h _ _ (by
    rw [Shape.rowMajor_val_two, Shape.rowMajor_val_one]
    show j.val * 1 + 0 = j.val
    rw [Nat.mul_one, Nat.add_zero])

/-- The pairs flattened: an [a, b, c] array viewed as the [n, c] matrix (n = a·b) reads, at row r = i·b + k and
    column j, the operand at (i, k, j). -/
theorem shapeCast_abc_nc_apply (x : (⟨3, ![a, b, c]⟩ : Shape).Idx → α)
    (h : (⟨3, ![a, b, c]⟩ : Shape).ShapeCasts ⟨2, ![n, c]⟩) (i : Fin a) (k : Fin b) (j : Fin c) (r : Fin n)
    (hr : r.val = i.val * b + k.val) :
    shapeCast ⟨2, ![n, c]⟩ x h (ix2 r j) = x (ix3 i k j) :=
  shapeCast_apply x h _ _ (by
    rw [Shape.rowMajor_val_three, Shape.rowMajor_val_two]
    show (i.val * b + k.val) * c + j.val = r.val * c + j.val
    rw [hr])

/-- And back: an [n, c] matrix (n = a·b) viewed [a, b, c] reads, at (i, k, j), the operand at row r = i·b + k. -/
theorem shapeCast_nc_abc_apply (x : (⟨2, ![n, c]⟩ : Shape).Idx → α)
    (h : (⟨2, ![n, c]⟩ : Shape).ShapeCasts ⟨3, ![a, b, c]⟩) (i : Fin a) (k : Fin b) (j : Fin c) (r : Fin n)
    (hr : r.val = i.val * b + k.val) :
    shapeCast ⟨3, ![a, b, c]⟩ x h (ix3 i k j) = x (ix2 r j) :=
  shapeCast_apply x h _ _ (by
    rw [Shape.rowMajor_val_three, Shape.rowMajor_val_two]
    show r.val * c + j.val = (i.val * b + k.val) * c + j.val
    rw [hr])

/-- The source index of a sum over the last axis: the pair (i, k) with the coordinate j inserted is (i, k, j). -/
theorem lift_last (h : (⟨3, ![a, b, c]⟩ : Shape).Reduces [(2 : Fin 3)] ⟨2, ![a, b]⟩) (i : Fin a) (k : Fin b) (j : Fin c) :
    h.lift (ix2 i k) j = ix3 i k j := by
  funext d
  apply Fin.ext
  show h.liftVal (ix2 i k) j.val d = (ix3 i k j d).val
  unfold Shape.Reduces.liftVal
  match d with
  | ⟨0, _⟩ => rfl
  | ⟨1, _⟩ => rfl
  | ⟨2, _⟩ => rfl

/-- Over the extended reals a sum over the last axis of an [a, b, c] array, from the zero accumulator, is at the pair
    (i, k) the sum over j of the entries (i, k, j). -/
theorem laneSum_apply {φ : FTy} (src : FVec Ideal ⟨3, ![a, b, c]⟩ φ) (acc : BitVec φ.bits)
    (h : (⟨3, ![a, b, c]⟩ : Shape).Reduces [(2 : Fin 3)] ⟨2, ![a, b]⟩) (hφ : FKind.Formats φ)
    (hacc : acc = FKind.add.neutral φ hφ) (i : Fin a) (k : Fin b) :
    multiReduction .add [(2 : Fin 3)] ⟨2, ![a, b]⟩ src acc h hφ hacc (ix2 i k) = ∑ j : Fin c, src (ix3 i k j) := by
  refine (Ideal.multiReduction_add_single src acc h hφ hacc (ix2 i k)).trans ?_
  show ∑ j : Fin c, src (h.lift (ix2 i k) j) = _
  exact Finset.sum_congr rfl fun j _ => congrArg src (lift_last h i k j)

end Cert.PairLayout

end
-- ==== Proof.KernelSteps.lean ====
/-
  The kernel's vector operations on one chunk of 128 rows, read one matrix at a time.

  A chunk is a [128, 256] block of the input; the kernel views it as 128 matrices of 16 x 16 (`vmat S p`: entry
  (i, j) of matrix p is the [128, 16, 16] vector at (p, i, j)), transposes each and adds the constant (`vStart`), and
  then normalises by multiplying with reciprocals: a column step sums over the middle axis, takes 1 / sum on the
  [128, 1, 16] vector of sums, spreads it over the middle axis and multiplies (`vColMul`); a row step does the same
  with the last axis (`vRowSum`, `vRowScale`, `vRowMul`).  At the end the matrices are flattened back to rows of 256
  (`vFlat`).  Matrix by matrix these are the specification's operations.
-/
import proofs.«134620_j74010876444938_2_alg».proof.Proof.Sinkhorn
import proofs.«134620_j74010876444938_2_alg».proof.Proof.LibSlabLayout
import proofs.«134620_j74010876444938_2_alg».proof.Proof.LibPairLayout

noncomputable section

namespace Cert.KernelSteps

open Idealize.ShloMosaic Idealize.ShloMosaic.ValueIdx Cert.Sinkhorn
open scoped BigOperators

abbrev V2 : Shape := ⟨2, ![128, 256]⟩
abbrev V3 : Shape := ⟨3, ![128, 16, 16]⟩
abbrev V16 : Shape := ⟨2, ![128, 16]⟩
abbrev VCol : Shape := ⟨3, ![128, 1, 16]⟩
abbrev VRow : Shape := ⟨3, ![128, 16, 1]⟩

/-- Matrix p of a [128, 16, 16] vector. -/
def vmat (S : V3.Idx → EReal) (p : Fin 128) : Mat := fun i j => S (ix3 p i j)
/-- Row p of a [128, 256] chunk. -/
def vrow (x : V2.Idx → EReal) (p : Fin 128) : Fin 256 → EReal := fun q => x (ix2 p q)

/-- Position 16 i + j of a row of 256. -/
def flat (i j : Fin 16) : Fin 256 := ⟨16 * i.val + j.val, by have := i.isLt; have := j.isLt; omega⟩

variable (hsc : V2.ShapeCasts V3) (htr : V3.Transposes [0, 2, 1] V3)
  (hr1 : V3.Reduces [1] V16) (hr2 : V3.Reduces [2] V16)
  (hcc : V16.ShapeCasts VCol) (hcb : VCol.Broadcasts V3)
  (hrc : V16.ShapeCasts VRow) (hrb : VRow.Broadcasts V3)
  (hback : V3.ShapeCasts V2)

/-- The chunk as matrices, each transposed, plus the constant. -/
def vStart (x : FVec Ideal V2 .f32) : FVec Ideal V3 .f32 :=
  addf (transpose V3 [0, 2, 1] (shapeCast V3 x hsc) htr) (broadcast V3 (Scalar.ofBits .f32 0x358637BD#32))

/-- A column step: every entry times the reciprocal of its column's sum. -/
def vColMul (S : FVec Ideal V3 .f32) : FVec Ideal V3 .f32 :=
  mulf S (broadcastTo V3 (divf (broadcast VCol (Scalar.ofBits .f32 0x3F800000#32))
    (shapeCast VCol (multiReduction .add [1] V16 S 0x00000000#32 hr1 (.inl rfl) rfl) hcc)) hcb)

/-- The row sums, kept as a [128, 16, 1] vector. -/
def vRowSum (S : FVec Ideal V3 .f32) : FVec Ideal VRow .f32 :=
  shapeCast VRow (multiReduction .add [2] V16 S 0x00000000#32 hr2 (.inl rfl) rfl) hrc

/-- Every entry of S times the reciprocal of the kept number R of its row. -/
def vRowScale (S : FVec Ideal V3 .f32) (R : FVec Ideal VRow .f32) : FVec Ideal V3 .f32 :=
  mulf S (broadcastTo V3 (divf (broadcast VRow (Scalar.ofBits .f32 0x3F800000#32)) R) hrb)

/-- A row step: every entry times the reciprocal of its row's sum. -/
def vRowMul (S : FVec Ideal V3 .f32) : FVec Ideal V3 .f32 := vRowScale hrb S (vRowSum hr2 hrc S)

/-- The matrices flattened back to rows of 256. -/
def vFlat (S : FVec Ideal V3 .f32) : FVec Ideal V2 .f32 := shapeCast V2 S hback

/-- The sum over the middle axis, from the zero word, at (p, j): the sum over k of the entries (p, k, j). -/
theorem colSums_apply (S : FVec Ideal V3 .f32) (p : Fin 128) (j : Fin 16) :
    multiReduction .add [1] V16 S 0x00000000#32 hr1 (.inl rfl) rfl (ix2 p j) = ∑ k : Fin 16, S (ix3 p k j) :=
  Cert.SlabLayout.midSum_apply S _ hr1 _ _ p j

/-- The sum over the last axis, from the zero word, at (p, i): the sum over j of the entries (p, i, j). -/
theorem rowSums_apply (S : FVec Ideal V3 .f32) (p : Fin 128) (i : Fin 16) :
    multiReduction .add [2] V16 S 0x00000000#32 hr2 (.inl rfl) rfl (ix2 p i) = ∑ j : Fin 16, S (ix3 p i j) :=
  Cert.PairLayout.laneSum_apply S _ hr2 _ _ p i

/-- Matrix p of the chunk's first vector is the specification's starting matrix of row p: entry (i, j) is the chunk
    at (p, 16 j + i) plus the constant. -/
theorem vmat_vStart (x : FVec Ideal V2 .f32) (p : Fin 128) : vmat (vStart hsc htr x) p = start (vrow x p) := by
  funext i j
  show addf (transpose V3 [0, 2, 1] (shapeCast V3 x hsc) htr) (broadcast V3 (Scalar.ofBits .f32 0x358637BD#32)) (ix3 p i j) = _
  rw [addf_apply, broadcast_apply]
  have e1 : transpose V3 [0, 2, 1] (shapeCast V3 x hsc) htr (ix3 p i j) = shapeCast V3 x hsc (ix3 p j i) :=
    transpose_apply _ _ htr _ _ (fun b => by
      match b with
      | ⟨0, _⟩ => rfl
      | ⟨1, _⟩ => rfl
      | ⟨2, _⟩ => rfl)
  have e2 : shapeCast V3 x hsc (ix3 p j i) = x (ix2 p ⟨16 * j.val + i.val, by have := i.isLt; have := j.isLt; omega⟩) :=
    shapeCast_apply x hsc _ _ (by
      rw [Shape.rowMajor_val_two, Shape.rowMajor_val_three]
      show p.val * 256 + (16 * j.val + i.val) = (p.val * 16 + j.val) * 16 + i.val
      omega)
  rw [e1, e2]
  rfl

/-- A column step acts on each matrix as the specification's multiplication by the reciprocal column sums. -/
theorem vmat_vColMul (S : FVec Ideal V3 .f32) (p : Fin 128) : vmat (vColMul hr1 hcc hcb S) p = colMul (vmat S p) := by
  funext i j
  show mulf S (broadcastTo V3 (divf (broadcast VCol (Scalar.ofBits .f32 0x3F800000#32))
    (shapeCast VCol (multiReduction .add [1] V16 S 0x00000000#32 hr1 (.inl rfl) rfl) hcc)) hcb) (ix3 p i j) = _
  rw [mulf_apply, Cert.PairLayout.broadcastTo_a1c_abc_apply, divf_apply, broadcast_apply,
    Cert.PairLayout.shapeCast_ac_a1c_apply, colSums_apply]
  show S (ix3 p i j) * Ideal.div (Ideal.ofBits .f32 0x3F800000#32) (∑ k : Fin 16, S (ix3 p k j)) = _
  rw [Ideal.ofBits_one_f32]
  rfl

/-- The kept row sum at (p, i, 0) is the sum of row i of matrix p. -/
theorem vRowSum_apply (S : FVec Ideal V3 .f32) (p : Fin 128) (i : Fin 16) :
    vRowSum hr2 hrc S (ix3 p i (0 : Fin 1)) = rowSum (vmat S p) i := by
  show shapeCast VRow (multiReduction .add [2] V16 S 0x00000000#32 hr2 (.inl rfl) rfl) hrc (ix3 p i (0 : Fin 1)) = _
  rw [Cert.SlabLayout.shapeCast_ab_ab1_apply, rowSums_apply]
  rfl

/-- Scaling by the reciprocals of kept numbers: entry (i, j) of matrix p is multiplied by 1 / R (p, i, 0). -/
theorem vRowScale_apply (S : FVec Ideal V3 .f32) (R : FVec Ideal VRow .f32) (p : Fin 128) (i j : Fin 16) :
    vRowScale hrb S R (ix3 p i j) = S (ix3 p i j) * Ideal.div 1 (R (ix3 p i (0 : Fin 1))) := by
  show mulf S (broadcastTo V3 (divf (broadcast VRow (Scalar.ofBits .f32 0x3F800000#32)) R) hrb) (ix3 p i j) = _
  rw [mulf_apply, Cert.SlabLayout.broadcastTo_ab1_abc_apply, divf_apply, broadcast_apply]
  show S (ix3 p i j) * Ideal.div (Ideal.ofBits .f32 0x3F800000#32) (R (ix3 p i (0 : Fin 1))) = _
  rw [Ideal.ofBits_one_f32]

/-- A row step acts on each matrix as the specification's multiplication by the reciprocal row sums. -/
theorem vmat_vRowMul (S : FVec Ideal V3 .f32) (p : Fin 128) : vmat (vRowMul hr2 hrc hrb S) p = rowMul (vmat S p) := by
  funext i j
  show vRowScale hrb S (vRowSum hr2 hrc S) (ix3 p i j) = _
  rw [vRowScale_apply, vRowSum_apply]
  rfl

/-- Scaling by kept numbers that ARE the row sums is the row step. -/
theorem vmat_vRowScale_rowSum (S : FVec Ideal V3 .f32) (p : Fin 128) :
    vmat (vRowScale hrb S (vRowSum hr2 hrc S)) p = rowMul (vmat S p) := vmat_vRowMul hr2 hrc hrb S p

/-- The flattened vector at (p, 16 i + j) is entry (i, j) of matrix p. -/
theorem vFlat_apply (S : FVec Ideal V3 .f32) (p : Fin 128) (i j : Fin 16) :
    vFlat hback S (ix2 p (flat i j)) = vmat S p i j :=
  shapeCast_apply S hback _ _ (by
    rw [Shape.rowMajor_val_three, Shape.rowMajor_val_two]
    show (p.val * 16 + i.val) * 16 + j.val = p.val * 256 + (16 * i.val + j.val)
    omega)

end Cert.KernelSteps

end
-- ==== Proof.KernelPayload.lean ====
/-
  What one trip of the kernel's loop computes from the chunk it loads.

  The body's arithmetic is printed in four named stretches.  Each is a composition of the chunk operations of
  KernelSteps.lean with this kernel's shape facts: the first takes the loaded chunk through the start and three passes;
  the second goes on through three more passes and the seventh column step; the third is the row sums of that; the
  last scales by the reciprocals of those row sums (so completes the seventh pass), runs three more passes and flattens.
  Composed (`chunk`), row p of the result at position 16 i + j is entry (i, j) of ten reciprocal-multiplying passes
  from the starting matrix of row p of the chunk.
-/
import proofs.«134620_j74010876444938_2_alg».proof.Proof.Gen.KernelIdeal.Skeleton
import proofs.«134620_j74010876444938_2_alg».proof.Proof.KernelSteps
import Idealize.ShloMosaic.PureOps.Ideal

set_option maxRecDepth 16384

noncomputable section

namespace Cert.KernelIdeal.Payload

open Idealize.ShloMosaic Idealize.ShloMosaic.ValueIdx Cert.KernelIdeal Cert.KernelIdeal.Gen Cert.KernelSteps Cert.Sinkhorn

variable [Facts]

/-- The chunk as matrices, transposed, plus the constant. -/
abbrev st (x : FVec Ideal V2 .f32) : FVec Ideal V3 .f32 :=
  vStart Facts₀.shapeCasts_S128x256_S128x16x16 Facts₀.transposes_S128x16x16_p0_2_1_S128x16x16 x
/-- A column step. -/
abbrev cm (S : FVec Ideal V3 .f32) : FVec Ideal V3 .f32 :=
  vColMul Facts₀.reduces_S128x16x16_S128x16 Facts₀.shapeCasts_S128x16_S128x1x16 Facts₀.broadcasts_S128x1x16_S128x16x16 S
/-- A row step. -/
abbrev rm (S : FVec Ideal V3 .f32) : FVec Ideal V3 .f32 :=
  vRowMul Facts₀.reduces_S128x16x16_S128x16_2 Facts₀.shapeCasts_S128x16_S128x16x1 Facts₀.broadcasts_S128x16x1_S128x16x16 S
/-- The kept row sums. -/
abbrev rs (S : FVec Ideal V3 .f32) : FVec Ideal VRow .f32 :=
  vRowSum Facts₀.reduces_S128x16x16_S128x16_2 Facts₀.shapeCasts_S128x16_S128x16x1 S
/-- Scaling by reciprocals of kept numbers. -/
abbrev rsc (S : FVec Ideal V3 .f32) (R : FVec Ideal VRow .f32) : FVec Ideal V3 .f32 :=
  vRowScale Facts₀.broadcasts_S128x16x1_S128x16x16 S R
/-- Flattening back to rows of 256. -/
abbrev fl (S : FVec Ideal V3 .f32) : FVec Ideal V2 .f32 := vFlat Facts₀.shapeCasts_S128x16x16_S128x256 S

/-- The word of the single-precision one. -/
abbrev one : Ideal .f32 := FloatOps.ofBits (F := Ideal) .f32 1065353216#32

theorem pay2_eq (x : FVec Ideal V2 .f32) : k0_pay2 (F := Ideal) x = rm (cm (rm (cm (rm (cm (st x)))))) := rfl

theorem pay3_eq (v : FVec Ideal V3 .f32) : k0_pay3 (F := Ideal) v = cm (rm (cm (rm (cm (rm (cm v)))))) := rfl

theorem pay4_eq (v : FVec Ideal V3 .f32) : k0_pay4 (F := Ideal) v = rs (k0_pay3 (F := Ideal) v) := rfl

theorem pay1_eq (v86 : FVec Ideal V3 .f32) (v88 : FVec Ideal VRow .f32) :
    k0_pay1 (F := Ideal) v86 v88 one = fl (rm (cm (rm (cm (rm (cm (rsc v86 v88))))))) := rfl

/-- What one trip stores, as a function of the chunk it loads. -/
def chunk (x : FVec Ideal V2 .f32) : FVec Ideal V2 .f32 :=
  k0_pay1 (F := Ideal) (k0_pay3 (F := Ideal) (k0_pay2 (F := Ideal) x)) (k0_pay4 (F := Ideal) (k0_pay2 (F := Ideal) x)) one

/-- Ten passes, spelt out. -/
theorem chunk_eq (x : FVec Ideal V2 .f32) :
    chunk x = fl (rm (cm (rm (cm (rm (cm (rm (cm (rm (cm (rm (cm (rm (cm (rm (cm (rm (cm (rm (cm (st x))))))))))))))))))))) := by
  unfold chunk
  rw [pay4_eq, pay1_eq, pay3_eq, pay2_eq]
  rfl

/-- Row p of the stored block at position 16 i + j is entry (i, j) of ten reciprocal-multiplying passes from the
    starting matrix of row p of the loaded chunk. -/
theorem chunk_apply (x : FVec Ideal V2 .f32) (p : Fin 128) (i j : Fin 16) :
    chunk x (ix2 p (flat i j)) = mulChain 10 (start (vrow x p)) i j := by
  rw [chunk_eq]
  refine (vFlat_apply _ _ p i j).trans ?_
  dsimp only [rm, cm, st]
  simp only [vmat_vRowMul, vmat_vColMul, vmat_vStart]
  rfl

end Cert.KernelIdeal.Payload

end
-- ==== Proof.KernelBlock.lean ====
/-
  What the kernel's body leaves in the output block, as ONE function of the input block.

  Rows are independent: row r of the result depends on row r of the operand only.  `rowsFun A` is, for an array of any
  number of rows of 256, the array whose row r at position 16 i + j is entry (i, j) of ten reciprocal-multiplying
  passes from the starting matrix of row r of A.  The body's loop stores 32 pieces of 128 rows each; every piece is the
  restriction of `rowsFun` of the whole input block to the piece's rows (a piece's chunk is the block's rows at the
  piece's offset), and the pieces cover the block, so the block ends as `rowsFun` of the input block.
-/
import proofs.«134620_j74010876444938_2_alg».proof.Proof.Gen.KernelIdeal.Frame
import proofs.«134620_j74010876444938_2_alg».proof.Proof.KernelPayload

set_option maxRecDepth 16384

noncomputable section

namespace Cert.KernelIdeal.Block

open Idealize.ShloMosaic Idealize.ShloMosaic.ValueIdx Cert.KernelIdeal Cert.KernelIdeal.Gen Cert.KernelSteps Cert.Sinkhorn

/-- Row by row: position q of row r is entry (q / 16, q % 16) of ten reciprocal-multiplying passes from the starting
    matrix of row r of the operand. -/
def rowsFun {n : ℕ} (A : (⟨2, ![n, 256]⟩ : Shape).Idx → EReal) : (⟨2, ![n, 256]⟩ : Shape).Idx → EReal :=
  fun y => mulChain 10 (start (fun q => A (ix2 (⟨(y 0).val, idx2_lt0 y⟩ : Fin n) q)))
    ⟨(y 1).val / 16, by have := idx2_lt1 y; omega⟩ ⟨(y 1).val % 16, Nat.mod_lt _ (by norm_num)⟩

/-- At row r and position 16 i + j. -/
theorem rowsFun_apply {n : ℕ} (A : (⟨2, ![n, 256]⟩ : Shape).Idx → EReal) (r : Fin n) (i j : Fin 16) :
    rowsFun A (ix2 r (flat i j)) = mulChain 10 (start (fun q => A (ix2 r q))) i j := by
  have hi : (⟨(16 * i.val + j.val) / 16, by have := i.isLt; have := j.isLt; omega⟩ : Fin 16) = i :=
    Fin.ext (by show (16 * i.val + j.val) / 16 = i.val; have := j.isLt; omega)
  have hj : (⟨(16 * i.val + j.val) % 16, Nat.mod_lt _ (by norm_num)⟩ : Fin 16) = j :=
    Fin.ext (by show (16 * i.val + j.val) % 16 = j.val; have := j.isLt; omega)
  show mulChain 10 (start (fun q => A (ix2 (⟨r.val, _⟩ : Fin n) q)))
    ⟨(16 * i.val + j.val) / 16, _⟩ ⟨(16 * i.val + j.val) % 16, _⟩ = _
  rw [hi, hj]

/-- At explicit coordinates (r, q). -/
theorem rowsFun_ix2 {n : ℕ} (A : (⟨2, ![n, 256]⟩ : Shape).Idx → EReal) (r : Fin n) (q : Fin 256) :
    rowsFun A (ix2 r q) = mulChain 10 (start (fun q' => A (ix2 r q')))
      ⟨q.val / 16, by have := q.isLt; omega⟩ ⟨q.val % 16, Nat.mod_lt _ (by norm_num)⟩ := rfl

/-- A unit-stride rectangle of 128 whole rows of the [4096, 256] block (its offset along a row is zero) places its
    local index (p, q) at row offset + p, position q. -/
theorem emb_rows (off : Fin 2 → ℕ) (inb : ∀ a, off a + S128x256.size a ≤ S4096x256.size a) (h1 : off 1 = 0)
    (p : Fin 128) (q : Fin 256) :
    (Rect.unit (s := S4096x256) off S128x256.size inb).emb (ix2 p q)
      = ix2 (⟨off 0 + p.val, by have h : off 0 + 128 ≤ 4096 := inb 0; have := p.isLt; omega⟩ : Fin 4096) q := by
  funext a
  apply Fin.ext
  match a with
  | ⟨0, _⟩ => show off 0 + 1 * p.val = off 0 + p.val; omega
  | ⟨1, _⟩ => show off 1 + 1 * q.val = q.val; omega

/-- Rows of the result depend on the same rows of the operand: `rowsFun` of the 128 rows a rectangle reads out of the
    block is `rowsFun` of the block at the rectangle's indices. -/
theorem rowsFun_ld (x0 : Vec Ideal S4096x256 .f32) (off : Fin 2 → ℕ) (inb : ∀ a, off a + S128x256.size a ≤ S4096x256.size a)
    (h1 : off 1 = 0) (p : Fin 128) (q : Fin 256) :
    rowsFun (n := 128) (View.ld (Val := Elt Ideal) (e' := .f32) x0 (Rect.unit (s := S4096x256) off S128x256.size inb)) (ix2 p q)
      = rowsFun (n := 4096) x0 ((Rect.unit (s := S4096x256) off S128x256.size inb).emb (ix2 p q)) := by
  rw [emb_rows off inb h1 p q, rowsFun_ix2, rowsFun_ix2]
  have hf : (fun q' : Fin 256 => View.ld (Val := Elt Ideal) (e' := .f32) x0 (Rect.unit (s := S4096x256) off S128x256.size inb) (ix2 p q'))
      = fun q' : Fin 256 => x0 (ix2 (⟨off 0 + p.val, by have h : off 0 + 128 ≤ 4096 := inb 0; have := p.isLt; omega⟩ : Fin 4096) q') :=
    funext fun q' => congrArg x0 (emb_rows off inb h1 p q')
  rw [hf]

/-- What a trip stores is `rowsFun` of the chunk it loads: the chunk's row p at position q. -/
theorem chunk_eq_rowsFun [Facts] (x : FVec Ideal V2 .f32) (p : Fin 128) (q : Fin 256) :
    Payload.chunk x (ix2 p q) = rowsFun (n := 128) x (ix2 p q) := by
  have hq : q = flat ⟨q.val / 16, by have := q.isLt; omega⟩ ⟨q.val % 16, Nat.mod_lt _ (by norm_num)⟩ :=
    Fin.ext (by show q.val = 16 * (q.val / 16) + q.val % 16; omega)
  rw [rowsFun_ix2]
  conv_lhs => rw [hq]
  exact Payload.chunk_apply x p _ _

variable [Facts]

/-- The one piece a trip of the loop writes is the restriction of `rowsFun` of the input block to the piece's rows. -/
theorem trip_agree (c : Dev nD) (i : grid0.Coords) (arg1 : Memref sig .tc .vmem S4096x256 .f32) (harg1 : arg1.IsWhole)
    (arg2 : Memref sig .tc .vmem S4096x256 .f32) (harg2 : arg2.IsWhole) (x0 : Vec Ideal S4096x256 .f32)
    (k : Fin k0_t1_loop.trips) :
    ∀ pc ∈ tripL_k0_t1 (F := Ideal) Variants.none c none i arg1 harg1 arg2 harg2 (harg1.unread x0) k,
      ∀ x : pc.1.shape.Idx, pc.2 x = rowsFun (n := 4096) x0 (pc.1.emb x) := by
  unfold tripL_k0_t1 trip_k0_t1
  dsimp only
  intro pc hpc
  rw [List.mem_singleton] at hpc
  subst hpc
  intro x
  obtain ⟨p, q, rfl⟩ : ∃ (p : Fin 128) (q : Fin 256), x = ix2 p q := ⟨x 0, x 1, eq_ix2 x⟩
  show Payload.chunk (View.readAt (Elt Ideal) arg1.view (Rect.unit (s := S4096x256) (k0_off1 k) S128x256.size (k0_off1_inb k)).toLoadRect (harg1.unread x0)) (ix2 p q) = _
  rw [View.readAt_eq_ld, harg1.read_unread, chunk_eq_rowsFun]
  exact rowsFun_ld x0 (k0_off1 k) (k0_off1_inb k) rfl p q

/-- So is every piece of the trips before any n. -/
theorem pb_agree (c : Dev nD) (i : grid0.Coords) (arg1 : Memref sig .tc .vmem S4096x256 .f32) (harg1 : arg1.IsWhole)
    (arg2 : Memref sig .tc .vmem S4096x256 .f32) (harg2 : arg2.IsWhole) (x0 : Vec Ideal S4096x256 .f32) :
    ∀ (n : ℕ), ∀ pc ∈ pb_k0_t1 (F := Ideal) Variants.none c none i arg1 harg1 arg2 harg2 (harg1.unread x0) n,
      ∀ x : pc.1.shape.Idx, pc.2 x = rowsFun (n := 4096) x0 (pc.1.emb x)
  | 0, pc, hpc => by rw [pb_k0_t1.eq_1] at hpc; exact absurd hpc List.not_mem_nil
  | n + 1, pc, hpc => by
    rw [pb_k0_t1.eq_2] at hpc
    unfold pb_k0_t1Step at hpc
    split at hpc
    · rcases List.mem_append.mp hpc with h | h
      · exact trip_agree c i arg1 harg1 arg2 harg2 x0 _ pc h
      · exact pb_agree c i arg1 harg1 arg2 harg2 x0 n pc h
    · exact pb_agree c i arg1 harg1 arg2 harg2 x0 n pc hpc

/-- The output block after the body is `rowsFun` of the input block, on any staging memrefs and at any grid point:
    every piece the loop wrote restricts that one function, and the pieces cover the block. -/
theorem out_eq (c : Dev nD) (i : grid0.Coords) (arg1 : Memref sig .tc .vmem S4096x256 .f32) (harg1 : arg1.IsWhole)
    (arg2 : Memref sig .tc .vmem S4096x256 .f32) (harg2 : arg2.IsWhole) (x0 : Vec Ideal S4096x256 .f32) :
    out0_A_1 (F := Ideal) c i arg1 harg1 arg2 harg2 x0 = rowsFun x0 := by
  funext y
  unfold out0_A_1
  refine View.read_writes_apply_of_pieces _ _ (rowsFun (n := 4096) x0) _ ?_ y (cover0_A_1 c i arg1 harg1 arg2 harg2 x0 y)
  unfold kernelRun0_A
  dsimp only
  exact pb_agree c i arg1 harg1 arg2 harg2 x0 _

end Cert.KernelIdeal.Block

end
-- ==== Proof.KernelRun.lean ====
/-
  From the block to the whole array, and the kernel's run.

  The kernel visits 32 grid points.  Point t loads rows 4096 t, ..., 4096 t + 4095 of the [131072, 256] input, leaves
  in its output block the row-by-row function of that block of rows, and writes the block back to the same rows of
  the output array.  Rows are independent: the result at (row, position) depends on that row of the operand and on
  the position only.  So the row-by-row function of a block of rows is that block of the row-by-row function of all
  the rows; the 32 blocks tile the 131072 rows; hence the output array ends as the row-by-row function of the input
  array.  One more operation reads each row of 256 as a 16 x 16 matrix (position 16 a + b of row R becomes entry
  (a, b) of matrix R), and that is what the result buffer holds when the run ends, the input unchanged.
-/
import proofs.«134620_j74010876444938_2_alg».proof.Proof.KernelBlock
import Idealize.ShloMosaic.Lib.Pipeline.Value
import Idealize.ShloMosaic.Lib.StableHlo.Run

set_option maxRecDepth 16384

noncomputable section

namespace Cert.KernelIdeal.RunValue

open Cert.KernelIdeal Cert.KernelIdeal.Gen Cert.KernelIdeal.Block Cert.KernelSteps Cert.Sinkhorn
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Rows are independent: the result at (row, position) depends on that row of the operand and on the position only.
    So two operands, of any numbers of rows, that agree along one row each give the same value there. -/
theorem rowsFun_congr {n n' : ℕ} (A : (⟨2, ![n, 256]⟩ : Shape).Idx → EReal) (B : (⟨2, ![n', 256]⟩ : Shape).Idx → EReal)
    (Y : (⟨2, ![n, 256]⟩ : Shape).Idx) (y : (⟨2, ![n', 256]⟩ : Shape).Idx)
    (hrow : ∀ q : Fin 256, B (ix2 (⟨(y 0).val, idx2_lt0 y⟩ : Fin n') q) = A (ix2 (⟨(Y 0).val, idx2_lt0 Y⟩ : Fin n) q))
    (hpos : (y 1).val = (Y 1).val) : rowsFun B y = rowsFun A Y := by
  unfold rowsFun
  have e1 : (fun q => B (ix2 (⟨(y 0).val, idx2_lt0 y⟩ : Fin n') q))
      = fun q => A (ix2 (⟨(Y 0).val, idx2_lt0 Y⟩ : Fin n) q) := funext hrow
  simp only [e1, hpos]

/-- The two windows' block indices at a grid point: both windows take block t of the rows and the whole row
    (index 0 along the positions), decided over the 32 points. -/
theorem index_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What grid point t writes back to the output array is block t of the row-by-row function of the WHOLE input array:
    the body leaves the row-by-row function of input block t, input block t is the input's rows 4096 t + r, output
    block t sits at the same rows, both windows take whole rows, and a row of the result depends on that row only. -/
theorem flushed_eq (c : Dev nD) (t : Fin cfg0.N) :
    (dats (F := Ideal) m 0 c).flushed 1 t
      = ((cfg0.win 1).blk t).view.read (Elt Ideal) (rowsFun (n := 131072) (V m c main_arg0)) := by
  show (cfg0.win 1).cut (grid0.coords t) ((dats m 0 c).after 1 t) = _
  rw [after0_1]
  unfold outsAt0
  rw [Block.out_eq]
  obtain ⟨e0, e1, e2, e3⟩ := index_facts t
  funext j
  show rowsFun (n := 4096) (iblk m c 0 t) ((cfg0.win 1).xinj (grid0.coords t) j)
    = rowsFun (n := 131072) (V m c main_arg0) (((cfg0.win 1).blk t).view.emb j)
  refine rowsFun_congr (n := 131072) (n' := 4096) (V m c main_arg0) (iblk m c 0 t)
    (((cfg0.win 1).blk t).view.emb j) ((cfg0.win 1).xinj (grid0.coords t) j) (fun q => ?_) ?_
  · unfold iblk
    refine congrArg (V m c main_arg0) (funext fun a => Fin.ext ?_)
    match a with
    | ⟨0, _⟩ =>
      show win0_0.index t (0 : Fin 2) * 4096 + 1 * (j 0).val = win0_1.index t (0 : Fin 2) * 4096 + 1 * (j 0).val
      omega
    | ⟨1, _⟩ =>
      show win0_0.index t (1 : Fin 2) * 256 + 1 * q.val = q.val
      omega
  · show (j 1).val = win0_1.index t (1 : Fin 2) * 256 + 1 * (j 1).val
    omega

/-- An index of the output array lies in grid point t's block exactly when each coordinate lies in the block's range
    on its axis: from the block index times the block's extent, for the block's extent. -/
theorem mem_block (t : Fin cfg0.N) (i : S131072x256.Idx) :
    i ∈ ((cfg0.win 1).blk t).view.set ↔ ∀ a : Fin 2, win0_1.index t a * S4096x256.size a ≤ (i a).val
      ∧ (i a).val < win0_1.index t a * S4096x256.size a + S4096x256.size a := by
  show i ∈ ((View.whole main_v0).slice (win0_1.rect t)).set ↔ _
  rw [View.set_slice_whole, Rect.mem_set_unit]
  exact Iff.rfl

/-- The 32 blocks of 4096 rows tile the 131072 rows: row R lies in the block of grid point R / 4096, and every
    grid point writes its block back. -/
theorem cover (i : S131072x256.Idx) :
    ∃ t : Fin cfg0.N, (cfg0.win 1).flush t = true ∧ i ∈ ((cfg0.win 1).blk t).view.set := by
  have hi0 : (i 0).val < 131072 := idx2_lt0 i
  have hi1 : (i 1).val < 256 := idx2_lt1 i
  have hN : (i 0).val / 4096 < cfg0.N := by show _ < grid0.N; rw [N_0]; omega
  obtain ⟨e0, e1, e2, e3⟩ := index_facts ⟨(i 0).val / 4096, hN⟩
  have e2' : win0_1.index ⟨(i 0).val / 4096, hN⟩ (0 : Fin 2) = (i 0).val / 4096 := e2
  refine ⟨⟨(i 0).val / 4096, hN⟩, flush0_1 _, ?_⟩
  rw [mem_block]
  intro a
  match a with
  | ⟨0, _⟩ =>
    show win0_1.index ⟨(i 0).val / 4096, hN⟩ (0 : Fin 2) * 4096 ≤ (i 0).val
      ∧ (i 0).val < win0_1.index ⟨(i 0).val / 4096, hN⟩ (0 : Fin 2) * 4096 + 4096
    omega
  | ⟨1, _⟩ =>
    show win0_1.index ⟨(i 0).val / 4096, hN⟩ (1 : Fin 2) * 256 ≤ (i 1).val
      ∧ (i 1).val < win0_1.index ⟨(i 0).val / 4096, hN⟩ (1 : Fin 2) * 256 + 256
    omega

/-- So after the last grid point the output array is the row-by-row function of the whole input array. -/
theorem final (c : Dev nD) :
    (dats (F := Ideal) m 0 c).arrAt 1 cfg0.N = rowsFun (n := 131072) (V m c main_arg0) :=
  (dats m 0 c).arrAt_eq_of_cover 1 (rowsFun (n := 131072) (V m c main_arg0)) (fun t _ => flushed_eq m c t) cover

/-- The last operation: the [131072, 256] array read as [131072, 16, 16], each row of 256 as a 16 x 16 matrix. -/
def cube (Y : S131072x256.Idx → EReal) : S131072x16x16.Idx → EReal :=
  shapeCast S131072x16x16 Y shapeCasts_S131072x256_S131072x16x16

/-- Entry (a, b) of matrix R is position 16 a + b of row R: the two have the same row-major position,
    (16 R + a) 16 + b = 256 R + (16 a + b). -/
theorem cube_apply (Y : S131072x256.Idx → EReal) (R : Fin 131072) (a b : Fin 16) :
    cube Y (ix3 R a b) = Y (ix2 R (flat a b)) := by
  unfold cube
  exact shapeCast_apply Y _ (ix3 R a b) (ix2 R (flat a b)) (by
    rw [Shape.rowMajor_val_two, Shape.rowMajor_val_three]
    show R.val * 256 + (16 * a.val + b.val) = (R.val * 16 + a.val) * 16 + b.val
    omega)

/-- What the last operation leaves in the result buffer: the output array as the region leaves it, which is the
    row-by-row function of the input, read as matrices. -/
theorem tail_eq (c : Dev nD) :
    Pipeline.afterTail₀ cfgs (dats (F := Ideal) m) 0 (V0 m) [hostOps1] c main_v1
      = cube (rowsFun (n := 131072) (V m c main_arg0)) := by
  unfold Pipeline.afterTail₀
  show StableHlo.after hostOps1 _ (Proc.devRef .tc main_v1) = _
  after_results
  exact congrArg cube ((Pipeline.withArrays_arr spec0 launch0.win.arr_inj c _ _ 1).trans (final m c))

/-- The result buffer is touched by no window: it is neither window's array. -/
theorem result_bypasses : main_v1 ∈ Pipeline.restRefs sig (cfgs 0).spec :=
  Pipeline.mem_restRefs_of main_v1 rfl (fun w => by fin_cases w <;> decide)

/-- THE KERNEL'S RUN: every weakly fair execution terminates with the result buffer holding, as matrices, the
    row-by-row function of the input (ten reciprocal-multiplying passes from each row's starting matrix), and the
    input unchanged. -/
theorem kernel_run :
    θ_run (defs (F := Ideal)) (onTc (τ := τ) (main (F := Ideal))) ⟨m, fun _ => 0, ρ⟩ (fun r => ∀ c : Dev nD,
      r.2.mem ((c.tc : Thread nD τ).loc main_v1)
        = cube (rowsFun (n := 131072) (m ((c.tc : Thread nD τ).loc main_arg0)))
      ∧ r.2.mem ((c.tc : Thread nD τ).loc main_arg0) = m ((c.tc : Thread nD τ).loc main_arg0)) :=
  (θ_run defs _ _).mono (fun r h c =>
      ⟨((h c).2 main_v1 result_bypasses).trans (tail_eq m c),
       ((h c).1 0).trans (((dats m 0 c).arrAt_in 0 rfl _).trans ((A_eq m c 0).trans (V_main_arg0 m c)))⟩)
    (run_main m ρ)

end Cert.KernelIdeal.RunValue

end
-- ==== Proof.HostSteps.lean ====
/-
  The reference's operations on the whole [131072, 16, 16] array, read one batch row at a time.

  The array is 131072 independent 16 x 16 matrices (`mat X b`: entry (i, j) of matrix b is the array at (b, i, j)).
  The reference builds its first array by reading each row of 256 inputs as a 16 x 16 matrix, transposing it and
  adding the constant (`first`); a column step sums over the middle axis, keeps the sum as a [131072, 1, 16] array
  (`colKeep`), spreads it back and divides (`colStep`); a row step does the same over the last axis
  (`rowKeep`, `rowStep`).  Row by row these are the matrix operations of the specification.
  The shape facts the operations take are hypotheses here, so that any program printing these operations can use the
  lemmas with its own witnesses.
-/
import proofs.«134620_j74010876444938_2_alg».proof.Proof.Sinkhorn
import Idealize.ShloMosaic.Lib.IdealHost
import Idealize.ShloMosaic.Lib.Pipeline.Value

noncomputable section

namespace Cert.HostSteps

open Idealize.ShloMosaic Idealize.ShloMosaic.ValueIdx Cert.Sinkhorn
open scoped BigOperators

abbrev SIn : Shape := ⟨2, ![131072, 256]⟩
abbrev S3 : Shape := ⟨3, ![131072, 16, 16]⟩
abbrev S2 : Shape := ⟨2, ![131072, 16]⟩
abbrev SCol : Shape := ⟨3, ![131072, 1, 16]⟩
abbrev SRow : Shape := ⟨3, ![131072, 16, 1]⟩
abbrev S0 : Shape := ⟨0, ![]⟩

/-- Matrix b of a [131072, 16, 16] array. -/
def mat (X : S3.Idx → EReal) (b : Fin 131072) : Mat := fun i j => X (ix3 b i j)
/-- Row b of the [131072, 256] input. -/
def rowOf (A : SIn.Idx → EReal) (b : Fin 131072) : Fin 256 → EReal := fun q => A (ix2 b q)

variable (hsc : SIn.ShapeCasts S3) (htr : S3.Transposes [0, 2, 1] S3)
  (hbe : S0.BroadcastsInDim S3 (![] : Fin 0 → Fin S3.rank))
  (h1 : S3.ReducesTo [1] S2) (h2 : S3.ReducesTo [2] S2) (h0 : 0 < S0.numel)
  (hc1 : S2.BroadcastsInDim SCol (![0, 2] : Fin 2 → Fin SCol.rank))
  (hc2 : SCol.BroadcastsInDim S3 (![0, 1, 2] : Fin 3 → Fin S3.rank))
  (hr1 : S2.BroadcastsInDim SRow (![0, 1] : Fin 2 → Fin SRow.rank))
  (hr2 : SRow.BroadcastsInDim S3 (![0, 1, 2] : Fin 3 → Fin S3.rank))

/-- The array the chain starts from: the input reshaped, its last two axes exchanged, plus the constant. -/
def first (A : FVec Ideal SIn .f32) : FVec Ideal S3 .f32 :=
  addf (transpose S3 [0, 2, 1] (shapeCast S3 A hsc) htr) (broadcastInDim S3 ![] hbe (constant S0 .f32 0x358637BD#32))

/-- The column sums, kept as a [131072, 1, 16] array. -/
def colKeep (X : FVec Ideal S3 .f32) : FVec Ideal SCol .f32 :=
  broadcastInDim SCol ![0, 2] hc1 (Host.reduceAdd X (constant S0 .f32 0x00000000#32) h1 h0)
/-- The row sums, kept as a [131072, 16, 1] array. -/
def rowKeep (X : FVec Ideal S3 .f32) : FVec Ideal SRow .f32 :=
  broadcastInDim SRow ![0, 1] hr1 (Host.reduceAdd X (constant S0 .f32 0x00000000#32) h2 h0)
/-- A column step: every entry divided by its column's sum. -/
def colStep (X : FVec Ideal S3 .f32) : FVec Ideal S3 .f32 :=
  Host.divf X (broadcastInDim S3 ![0, 1, 2] hc2 (colKeep h1 h0 hc1 X))
/-- A row step: every entry divided by its row's sum. -/
def rowStep (X : FVec Ideal S3 .f32) : FVec Ideal S3 .f32 :=
  Host.divf X (broadcastInDim S3 ![0, 1, 2] hr2 (rowKeep h2 h0 hr1 X))

/-- Matrix b of the first array is the specification's starting matrix of input row b. -/
theorem mat_first (A : FVec Ideal SIn .f32) (b : Fin 131072) : mat (first hsc htr hbe A) b = start (rowOf A b) := by
  -- entry (i, j) of the transposed array is entry (j, i) of the reshaped one, which sits at the same row-major
  -- position as input (b, 16 j + i): 256 b + (16 j + i) = (16 b + j) 16 + i; the constant is spread to every entry
  funext i j
  unfold mat first start rowOf
  rw [addf_apply,
      transpose_apply [0, 2, 1] _ htr (ix3 b i j) (ix3 b j i)
        (fun a => match a with | ⟨0, _⟩ => rfl | ⟨1, _⟩ => rfl | ⟨2, _⟩ => rfl),
      shapeCast_apply A hsc (ix3 b j i)
        (ix2 b ⟨16 * j.val + i.val, by have := i.isLt; have := j.isLt; omega⟩)
        (by
          rw [Shape.rowMajor_val_two, Shape.rowMajor_val_three]
          show b.val * 256 + (16 * j.val + i.val) = (b.val * 16 + j.val) * 16 + i.val
          omega),
      broadcastInDim_scalar_apply, constant_apply]

/-- The kept column sum at (b, 0, j) is the sum of column j of matrix b. -/
theorem colKeep_apply (X : FVec Ideal S3 .f32) (b : Fin 131072) (j : Fin 16) :
    colKeep h1 h0 hc1 X (ix3 b 0 j) = colSum (mat X b) j := by
  -- the kept array at (b, 0, j) is the reduced array at (b, j): zero plus the sum over the middle coordinate
  have hR : S3.Reduces [1] S2 := by decide
  unfold colKeep
  rw [broadcastInDim_apply ![0, 2] hc1 _ (ix3 b 0 j) (ix2 b j)
        (fun a => match a with | ⟨0, _⟩ => rfl | ⟨1, _⟩ => rfl),
      hostReduceAdd_apply, Ideal.hostReduceAdd_single h1 hR, constant_apply, Ideal.ofBits_zero_f32, zero_add]
  show ∑ k : Fin 16, X (hR.lift (ix2 b j) k) = ∑ i : Fin 16, X (ix3 b i j)
  exact Finset.sum_congr rfl fun k _ => congrArg X (funext fun a => match a with
    | ⟨0, _⟩ => Fin.ext rfl | ⟨1, _⟩ => Fin.ext rfl | ⟨2, _⟩ => Fin.ext rfl)

/-- The kept row sum at (b, i, 0) is the sum of row i of matrix b. -/
theorem rowKeep_apply (X : FVec Ideal S3 .f32) (b : Fin 131072) (i : Fin 16) :
    rowKeep h2 h0 hr1 X (ix3 b i 0) = rowSum (mat X b) i := by
  -- the kept array at (b, i, 0) is the reduced array at (b, i): zero plus the sum over the last coordinate
  have hR : S3.Reduces [2] S2 := by decide
  unfold rowKeep
  rw [broadcastInDim_apply ![0, 1] hr1 _ (ix3 b i 0) (ix2 b i)
        (fun a => match a with | ⟨0, _⟩ => rfl | ⟨1, _⟩ => rfl),
      hostReduceAdd_apply, Ideal.hostReduceAdd_single h2 hR, constant_apply, Ideal.ofBits_zero_f32, zero_add]
  show ∑ k : Fin 16, X (hR.lift (ix2 b i) k) = ∑ j : Fin 16, X (ix3 b i j)
  exact Finset.sum_congr rfl fun k _ => congrArg X (funext fun a => match a with
    | ⟨0, _⟩ => Fin.ext rfl | ⟨1, _⟩ => Fin.ext rfl | ⟨2, _⟩ => Fin.ext rfl)

/-- A column step acts on each matrix as the specification's column division. -/
theorem mat_colStep (X : FVec Ideal S3 .f32) (b : Fin 131072) : mat (colStep h1 h0 hc1 hc2 X) b = colDiv (mat X b) := by
  -- the kept sums spread back along the unit middle axis: the divisor at (b, i, j) is the kept sum at (b, 0, j)
  funext i j
  unfold mat colStep colDiv
  rw [hostDivf_apply,
      broadcastInDim_apply ![0, 1, 2] hc2 _ (ix3 b i j) (ix3 b 0 j)
        (fun a => match a with | ⟨0, _⟩ => rfl | ⟨1, _⟩ => rfl | ⟨2, _⟩ => rfl),
      colKeep_apply]
  rfl

/-- A row step acts on each matrix as the specification's row division. -/
theorem mat_rowStep (X : FVec Ideal S3 .f32) (b : Fin 131072) : mat (rowStep h2 h0 hr1 hr2 X) b = rowDiv (mat X b) := by
  -- the kept sums spread back along the unit last axis: the divisor at (b, i, j) is the kept sum at (b, i, 0)
  funext i j
  unfold mat rowStep rowDiv
  rw [hostDivf_apply,
      broadcastInDim_apply ![0, 1, 2] hr2 _ (ix3 b i j) (ix3 b i 0)
        (fun a => match a with | ⟨0, _⟩ => rfl | ⟨1, _⟩ => rfl | ⟨2, _⟩ => rfl),
      rowKeep_apply]
  rfl

end Cert.HostSteps

end
-- ==== Proof.RefValue.lean ====
/-
  The reference's result, one batch row at a time, as the dividing chain of the specification.

  The reference's run names twenty intermediate arrays.  The first is the input reshaped, transposed and shifted by
  the constant; each later one is a column step or a row step of the one before, alternately, and the result is a
  row step of the last.  Every one of these equations holds by unfolding a single definition.  Read on matrix b, a
  column step followed by a row step is one pass of the dividing chain, so matrix b of the result is ten passes
  applied to the starting matrix of input row b.
-/
import proofs.«134620_j74010876444938_2_alg».proof.Proof.Gen.ReferenceIdeal.Run
import proofs.«134620_j74010876444938_2_alg».proof.Proof.HostSteps

noncomputable section

namespace Cert.ReferenceIdeal.RefValue

open Cert.ReferenceIdeal Cert.ReferenceIdeal.Value Idealize.ShloMosaic Idealize.SL.Sem Idealize.ShloMosaic.StableHlo
open Cert.Sinkhorn

/-- The [131072, 16, 16] arrays of extended reals the chain runs through. -/
abbrev Arr := FVec Ideal HostSteps.S3 .f32

/-- A column step, with the shape facts of the reference. -/
abbrev cs (X : Arr) : Arr :=
  HostSteps.colStep Gen.reducesTo_S131072x16x16_S131072x16_d1 Gen.h_S_ Gen.bcast_S131072x16_S131072x1x16_0_2
    Gen.bcast_S131072x1x16_S131072x16x16_0_1_2 X

/-- A row step, with the shape facts of the reference. -/
abbrev rs (X : Arr) : Arr :=
  HostSteps.rowStep Gen.reducesTo_S131072x16x16_S131072x16_d2 Gen.h_S_ Gen.bcast_S131072x16_S131072x16x1_0_1
    Gen.bcast_S131072x16x1_S131072x16x16_0_1_2 X

/-- The first array is the input reshaped, transposed and shifted. -/
theorem v3_eq (V0 : Valuation τ sig (Elt Ideal)) :
    (res_main_v3 (F := Ideal) V0 : Arr) =
      HostSteps.first Gen.shapeCasts_S131072x256_S131072x16x16 Gen.transposes_S131072x16x16_S131072x16x16_0_2_1
        Gen.bcast_S_S131072x16x16 (V0 (Proc.devRef .tc main_arg0)) := rfl

/-- Array 7 is a column step of array 3. -/
theorem v7_eq (V0 : Valuation τ sig (Elt Ideal)) :
    (res_main_v7 (F := Ideal) V0 : Arr) = cs (res_main_v3 V0) := rfl

/-- Array 11 is a row step of array 7. -/
theorem v11_eq (V0 : Valuation τ sig (Elt Ideal)) :
    (res_main_v11 (F := Ideal) V0 : Arr) = rs (res_main_v7 V0) := rfl

/-- Array 15 is a column step of array 11. -/
theorem v15_eq (V0 : Valuation τ sig (Elt Ideal)) :
    (res_main_v15 (F := Ideal) V0 : Arr) = cs (res_main_v11 V0) := rfl

/-- Array 19 is a row step of array 15. -/
theorem v19_eq (V0 : Valuation τ sig (Elt Ideal)) :
    (res_main_v19 (F := Ideal) V0 : Arr) = rs (res_main_v15 V0) := rfl

/-- Array 23 is a column step of array 19. -/
theorem v23_eq (V0 : Valuation τ sig (Elt Ideal)) :
    (res_main_v23 (F := Ideal) V0 : Arr) = cs (res_main_v19 V0) := rfl

/-- Array 27 is a row step of array 23. -/
theorem v27_eq (V0 : Valuation τ sig (Elt Ideal)) :
    (res_main_v27 (F := Ideal) V0 : Arr) = rs (res_main_v23 V0) := rfl

/-- Array 31 is a column step of array 27. -/
theorem v31_eq (V0 : Valuation τ sig (Elt Ideal)) :
    (res_main_v31 (F := Ideal) V0 : Arr) = cs (res_main_v27 V0) := rfl

/-- Array 35 is a row step of array 31. -/
theorem v35_eq (V0 : Valuation τ sig (Elt Ideal)) :
    (res_main_v35 (F := Ideal) V0 : Arr) = rs (res_main_v31 V0) := rfl

/-- Array 39 is a column step of array 35. -/
theorem v39_eq (V0 : Valuation τ sig (Elt Ideal)) :
    (res_main_v39 (F := Ideal) V0 : Arr) = cs (res_main_v35 V0) := rfl

/-- Array 43 is a row step of array 39. -/
theorem v43_eq (V0 : Valuation τ sig (Elt Ideal)) :
    (res_main_v43 (F := Ideal) V0 : Arr) = rs (res_main_v39 V0) := rfl

/-- Array 47 is a column step of array 43. -/
theorem v47_eq (V0 : Valuation τ sig (Elt Ideal)) :
    (res_main_v47 (F := Ideal) V0 : Arr) = cs (res_main_v43 V0) := rfl

/-- Array 51 is a row step of array 47. -/
theorem v51_eq (V0 : Valuation τ sig (Elt Ideal)) :
    (res_main_v51 (F := Ideal) V0 : Arr) = rs (res_main_v47 V0) := rfl

/-- Array 55 is a column step of array 51. -/
theorem v55_eq (V0 : Valuation τ sig (Elt Ideal)) :
    (res_main_v55 (F := Ideal) V0 : Arr) = cs (res_main_v51 V0) := rfl

/-- Array 59 is a row step of array 55. -/
theorem v59_eq (V0 : Valuation τ sig (Elt Ideal)) :
    (res_main_v59 (F := Ideal) V0 : Arr) = rs (res_main_v55 V0) := rfl

/-- Array 63 is a column step of array 59. -/
theorem v63_eq (V0 : Valuation τ sig (Elt Ideal)) :
    (res_main_v63 (F := Ideal) V0 : Arr) = cs (res_main_v59 V0) := rfl

/-- Array 67 is a row step of array 63. -/
theorem v67_eq (V0 : Valuation τ sig (Elt Ideal)) :
    (res_main_v67 (F := Ideal) V0 : Arr) = rs (res_main_v63 V0) := rfl

/-- Array 71 is a column step of array 67. -/
theorem v71_eq (V0 : Valuation τ sig (Elt Ideal)) :
    (res_main_v71 (F := Ideal) V0 : Arr) = cs (res_main_v67 V0) := rfl

/-- Array 75 is a row step of array 71. -/
theorem v75_eq (V0 : Valuation τ sig (Elt Ideal)) :
    (res_main_v75 (F := Ideal) V0 : Arr) = rs (res_main_v71 V0) := rfl

/-- Array 79 is a column step of array 75. -/
theorem v79_eq (V0 : Valuation τ sig (Elt Ideal)) :
    (res_main_v79 (F := Ideal) V0 : Arr) = cs (res_main_v75 V0) := rfl

/-- On matrix b, a column step followed by a row step is one more pass of the dividing chain. -/
theorem mat_pass (X : Arr) (b : Fin 131072) (n : ℕ) (M : Mat) (h : HostSteps.mat X b = divChain n M) :
    HostSteps.mat (rs (cs X)) b = divChain (n + 1) M := by
  rw [HostSteps.mat_rowStep, HostSteps.mat_colStep, h]
  exact (Function.iterate_succ_apply' divPass n M).symm

/-- Matrix b of the reference's result is ten passes of the dividing chain from the starting matrix of input row b. -/
theorem result_mat (V0 : Valuation τ sig (Elt Ideal)) (b : Fin 131072) :
    HostSteps.mat (Host.divf (F := Ideal) (res_main_v79 V0) (broadcastInDim S131072x16x16 ![0, 1, 2] Gen.bcast_S131072x16x1_S131072x16x16_0_1_2 (broadcastInDim S131072x16x1 ![0, 1] Gen.bcast_S131072x16_S131072x16x1_0_1 (Host.reduceAdd (res_main_v79 (F := Ideal) V0) (constant S_ .f32 0x00000000#32) Gen.reducesTo_S131072x16x16_S131072x16_d2 Gen.h_S_)))) b
      = divChain 10 (start (HostSteps.rowOf (V0 (Proc.devRef .tc main_arg0)) b)) := by
  have e : (Host.divf (F := Ideal) (res_main_v79 V0) (broadcastInDim S131072x16x16 ![0, 1, 2] Gen.bcast_S131072x16x1_S131072x16x16_0_1_2 (broadcastInDim S131072x16x1 ![0, 1] Gen.bcast_S131072x16_S131072x16x1_0_1 (Host.reduceAdd (res_main_v79 (F := Ideal) V0) (constant S_ .f32 0x00000000#32) Gen.reducesTo_S131072x16x16_S131072x16_d2 Gen.h_S_))) : Arr)
      = rs (res_main_v79 V0) := rfl
  rw [e]
  have p0 : HostSteps.mat (res_main_v3 (F := Ideal) V0) b
      = divChain 0 (start (HostSteps.rowOf (V0 (Proc.devRef .tc main_arg0)) b)) := by
    rw [v3_eq]; exact HostSteps.mat_first _ _ _ _ b
  have p1 : HostSteps.mat (res_main_v11 (F := Ideal) V0) b
      = divChain 1 (start (HostSteps.rowOf (V0 (Proc.devRef .tc main_arg0)) b)) := by
    rw [v11_eq, v7_eq]; exact mat_pass _ b 0 _ p0
  have p2 : HostSteps.mat (res_main_v19 (F := Ideal) V0) b
      = divChain 2 (start (HostSteps.rowOf (V0 (Proc.devRef .tc main_arg0)) b)) := by
    rw [v19_eq, v15_eq]; exact mat_pass _ b 1 _ p1
  have p3 : HostSteps.mat (res_main_v27 (F := Ideal) V0) b
      = divChain 3 (start (HostSteps.rowOf (V0 (Proc.devRef .tc main_arg0)) b)) := by
    rw [v27_eq, v23_eq]; exact mat_pass _ b 2 _ p2
  have p4 : HostSteps.mat (res_main_v35 (F := Ideal) V0) b
      = divChain 4 (start (HostSteps.rowOf (V0 (Proc.devRef .tc main_arg0)) b)) := by
    rw [v35_eq, v31_eq]; exact mat_pass _ b 3 _ p3
  have p5 : HostSteps.mat (res_main_v43 (F := Ideal) V0) b
      = divChain 5 (start (HostSteps.rowOf (V0 (Proc.devRef .tc main_arg0)) b)) := by
    rw [v43_eq, v39_eq]; exact mat_pass _ b 4 _ p4
  have p6 : HostSteps.mat (res_main_v51 (F := Ideal) V0) b
      = divChain 6 (start (HostSteps.rowOf (V0 (Proc.devRef .tc main_arg0)) b)) := by
    rw [v51_eq, v47_eq]; exact mat_pass _ b 5 _ p5
  have p7 : HostSteps.mat (res_main_v59 (F := Ideal) V0) b
      = divChain 7 (start (HostSteps.rowOf (V0 (Proc.devRef .tc main_arg0)) b)) := by
    rw [v59_eq, v55_eq]; exact mat_pass _ b 6 _ p6
  have p8 : HostSteps.mat (res_main_v67 (F := Ideal) V0) b
      = divChain 8 (start (HostSteps.rowOf (V0 (Proc.devRef .tc main_arg0)) b)) := by
    rw [v67_eq, v63_eq]; exact mat_pass _ b 7 _ p7
  have p9 : HostSteps.mat (res_main_v75 (F := Ideal) V0) b
      = divChain 9 (start (HostSteps.rowOf (V0 (Proc.devRef .tc main_arg0)) b)) := by
    rw [v75_eq, v71_eq]; exact mat_pass _ b 8 _ p8
  rw [v79_eq]; exact mat_pass _ b 9 _ p9

end Cert.ReferenceIdeal.RefValue

end
-- ==== Proof.PreDecode.lean ====
/-
  The precondition, read back one matrix at a time.

  The precondition computes one bit: it runs the dividing arrangement's ten passes on the whole [131072, 16, 16]
  array and, before each of the twenty divisions, conjoins "every divisor is nonzero" into the bit.  Here the
  computation is restated as a recursion over the passes (`checks`), the bit being 1 is unfolded into the twenty
  families of nonzero sums, and these are read matrix by matrix as the specification's `Regular 10`.
-/
import proofs.«134620_j74010876444938_2_alg».proof.Pre_finite_inputs
import proofs.«134620_j74010876444938_2_alg».proof.Proof.HostSteps
import Idealize.ShloMosaic.Lib.ReduceAll

noncomputable section

namespace Cert.PreDecode

open Idealize.ShloMosaic Idealize.ShloMosaic.ValueIdx Cert.Sinkhorn Cert.HostSteps
open Cert.Pre_finite_inputs (Facts)
open scoped BigOperators

variable [Facts]

/-- The starting array, at the precondition's own shape witnesses. -/
abbrev first' (A : FVec Ideal SIn .f32) : FVec Ideal S3 .f32 :=
  first Facts.shapeCasts_S131072x256_S131072x16x16 Facts.transposes_S131072x16x16_S131072x16x16_0_2_1
    Facts.bcast_S_S131072x16x16 A
abbrev colKeep' (X : FVec Ideal S3 .f32) : FVec Ideal SCol .f32 :=
  colKeep Facts.reducesTo_S131072x16x16_S131072x16_d1 Facts.h_S_ Facts.bcast_S131072x16_S131072x1x16_0_2 X
abbrev rowKeep' (X : FVec Ideal S3 .f32) : FVec Ideal SRow .f32 :=
  rowKeep Facts.reducesTo_S131072x16x16_S131072x16_d2 Facts.h_S_ Facts.bcast_S131072x16_S131072x16x1_0_1 X
abbrev colStep' (X : FVec Ideal S3 .f32) : FVec Ideal S3 .f32 :=
  colStep Facts.reducesTo_S131072x16x16_S131072x16_d1 Facts.h_S_ Facts.bcast_S131072x16_S131072x1x16_0_2
    Facts.bcast_S131072x1x16_S131072x16x16_0_1_2 X
abbrev rowStep' (X : FVec Ideal S3 .f32) : FVec Ideal S3 .f32 :=
  rowStep Facts.reducesTo_S131072x16x16_S131072x16_d2 Facts.h_S_ Facts.bcast_S131072x16_S131072x16x1_0_1
    Facts.bcast_S131072x16x1_S131072x16x16_0_1_2 X

/-- The bit "every kept column sum is nonzero". -/
def colOk (X : FVec Ideal S3 .f32) : IVec S0 1 :=
  Host.reduce IntOp.andi
    (cmpf .une (colKeep' X) (broadcastInDim SCol ![] Facts.bcast_S_S131072x1x16 (constant S0 .f32 0x00000000#32)))
    (constantI S0 1 1#1) Facts.reducesTo_S131072x1x16_S_d0_1_2 Facts.h_S_
/-- The bit "every kept row sum is nonzero". -/
def rowOk (X : FVec Ideal S3 .f32) : IVec S0 1 :=
  Host.reduce IntOp.andi
    (cmpf .une (rowKeep' X) (broadcastInDim SRow ![] Facts.bcast_S_S131072x16x1 (constant S0 .f32 0x00000000#32)))
    (constantI S0 1 1#1) Facts.reducesTo_S131072x16x1_S_d0_1_2 Facts.h_S_

/-- The bit the precondition starts from: every input is finite. -/
def okFinite (A : FVec Ideal SIn .f32) : IVec S0 1 :=
  Host.reduce IntOp.andi
    (cmpf .olt (Host.absf A) (broadcastInDim SIn ![] Facts.bcast_S_S131072x256 (constant S0 .f32 0x7F800000#32)))
    (constantI S0 1 1#1) Facts.reducesTo_S131072x256_S_d0_1 Facts.h_S_

/-- n passes of the precondition from the array X and the bit ok: each pass conjoins "no column sum of X vanishes"
    and "no row sum of X with its columns divided vanishes" into the bit, and goes on from X with its columns and
    then its rows divided. -/
def checks : ℕ → FVec Ideal S3 .f32 → IVec S0 1 → IVec S0 1
  | 0, _, ok => ok
  | n + 1, X, ok => checks n (rowStep' (colStep' X)) (andi (andi ok (colOk X)) (rowOk (colStep' X)))

/-- The precondition is ten passes of `checks` from the starting array and the finiteness bit: its chain of
    operations is this recursion written out, pass by pass. -/
theorem fn_eq_checks (A : FVec Ideal SIn .f32) :
    Cert.Pre_finite_inputs.fn (F := Ideal) A = checks 10 (first' A) (okFinite A) := rfl

/-- The rank-0 shape has one index. -/
instance : Subsingleton S0.Idx := ⟨fun _ _ => funext fun d => d.elim0⟩

/-- On the extended reals the comparison "not equal" answers 1 exactly at distinct operands. -/
theorem cmp_une_eq_one (x y : EReal) : Ideal.cmp .une x y = 1#1 ↔ x ≠ y := by
  by_cases h : x = y
  · simp [Ideal.cmp, h]
  · simp [Ideal.cmp, h]

/-- If the column bit is 1, no column sum of any matrix of the array vanishes. -/
theorem colSum_ne_zero (X : FVec Ideal S3 .f32) (h : colOk X ix0 = 1#1) (b : Fin 131072) (j : Fin 16) :
    colSum (mat X b) j ≠ 0 := by
  have e := Host.reduce_andi_all _ _ _ _ ix0 h (ix3 b 0 j)
  have hsum : colKeep' X (ix3 b 0 j) = colSum (mat X b) j := colKeep_apply _ _ _ X b j
  rwa [cmpf_apply, Ideal.cmpf_def, cmp_une_eq_one, broadcastInDim_scalar_apply, constant_apply,
    Ideal.ofBits_zero_f32, hsum] at e

/-- If the row bit is 1, no row sum of any matrix of the array vanishes. -/
theorem rowSum_ne_zero (X : FVec Ideal S3 .f32) (h : rowOk X ix0 = 1#1) (b : Fin 131072) (i : Fin 16) :
    rowSum (mat X b) i ≠ 0 := by
  have e := Host.reduce_andi_all _ _ _ _ ix0 h (ix3 b i 0)
  have hsum : rowKeep' X (ix3 b i 0) = rowSum (mat X b) i := rowKeep_apply _ _ _ X b i
  rwa [cmpf_apply, Ideal.cmpf_def, cmp_une_eq_one, broadcastInDim_scalar_apply, constant_apply,
    Ideal.ofBits_zero_f32, hsum] at e

/-- If n passes of the precondition end with the bit 1, the bit was 1 to begin with and every matrix of the
    array is regular for n passes: the last pass's conjunction splits into the earlier bit, the column bit of X
    and the row bit of X with its columns divided, and the remaining passes start from the array whose matrices
    are one dividing pass further on. -/
theorem checks_eq_one : ∀ (n : ℕ) (X : FVec Ideal S3 .f32) (ok : IVec S0 1), checks n X ok ix0 = 1#1 →
    ok ix0 = 1#1 ∧ ∀ b, Regular n (mat X b)
  | 0, _, _, h => ⟨h, fun _ => trivial⟩
  | n + 1, X, ok, h => by
    obtain ⟨hok, hreg⟩ := checks_eq_one n _ _ h
    have hok' : IntOp.andi (IntOp.andi (ok ix0) (colOk X ix0)) (rowOk (colStep' X) ix0) = 1#1 := hok
    obtain ⟨h12, h3⟩ := IntOp.andi_eq_one.1 hok'
    obtain ⟨h1, h2⟩ := IntOp.andi_eq_one.1 h12
    refine ⟨h1, fun b => ⟨fun j => colSum_ne_zero X h2 b j, fun i => ?_, ?_⟩⟩
    · have := rowSum_ne_zero (colStep' X) h3 b i
      rwa [mat_colStep] at this
    · have := hreg b
      rwa [mat_rowStep, mat_colStep] at this

/-- Under the precondition every input row starts a chain none of whose twenty divisors vanishes. -/
theorem regular_of_pre (A : FVec Ideal Cert.Pre_finite_inputs.S131072x256 .f32)
    (h : Cert.Pre_finite_inputs.fn (F := Ideal) A = fun _ => 1#1) (b : Fin 131072) :
    Regular 10 (start (rowOf A b)) := by
  have h0 : checks 10 (first' A) (okFinite A) ix0 = 1#1 := by rw [← fn_eq_checks, h]
  have := (checks_eq_one 10 _ _ h0).2 b
  rwa [mat_first] at this

end Cert.PreDecode

end
-- ==== Proof.Bridge.lean ====
/-
  Where the two programs meet.

  The reference's result, matrix by matrix, is ten DIVIDING passes from the starting matrix of the input's row; the
  kernel's array is, row by row, ten RECIPROCAL-MULTIPLYING passes from the same starting matrix (`rowsFun`).  Under the
  precondition none of the dividing chain's twenty divisors vanishes, for any row, and there the two chains are one
  matrix.  So the reference's result at (R, a, b) is `rowsFun` of the input at row R, position 16 a + b.
-/
import proofs.«134620_j74010876444938_2_alg».proof.Proof.RefValue
import proofs.«134620_j74010876444938_2_alg».proof.Proof.PreDecode
import proofs.«134620_j74010876444938_2_alg».proof.Proof.KernelBlock

noncomputable section

namespace Cert.Bridge

open Idealize.ShloMosaic Idealize.ShloMosaic.ValueIdx Idealize.SL.Sem Cert.Sinkhorn Cert.KernelSteps
open Cert.ReferenceIdeal Cert.ReferenceIdeal.Value

variable [Cert.Pre_finite_inputs.Facts]

/-- The reference's result term of a valuation whose argument array is A, at (R, a, b), is `rowsFun A` at
    (R, 16 a + b), for every A at which the precondition's function is all ones. -/
theorem ref_eq_rows (A : FVec Ideal Cert.Pre_finite_inputs.S131072x256 .f32)
    (hA : Cert.Pre_finite_inputs.fn (F := Ideal) A = fun _ => 1#1)
    (V0 : Valuation Cert.ReferenceIdeal.τ Cert.ReferenceIdeal.sig (Elt Ideal))
    (hV : V0 (Proc.devRef .tc Cert.ReferenceIdeal.main_arg0) = A) (R : Fin 131072) (a b : Fin 16) :
    Host.divf (F := Ideal) (res_main_v79 V0) (broadcastInDim S131072x16x16 ![0, 1, 2] Gen.bcast_S131072x16x1_S131072x16x16_0_1_2
        (broadcastInDim S131072x16x1 ![0, 1] Gen.bcast_S131072x16_S131072x16x1_0_1
          (Host.reduceAdd (res_main_v79 (F := Ideal) V0) (constant S_ .f32 0x00000000#32) Gen.reducesTo_S131072x16x16_S131072x16_d2 Gen.h_S_)))
      (ix3 R a b)
      = Cert.KernelIdeal.Block.rowsFun (n := 131072) A (ix2 R (flat a b)) := by
  have h1 := congrFun (congrFun (Cert.ReferenceIdeal.RefValue.result_mat V0 R) a) b
  rw [Cert.KernelIdeal.Block.rowsFun_apply]
  refine h1.trans ?_
  rw [hV, ← mulChain_eq_divChain 10 _ (Cert.PreDecode.regular_of_pre A hA R)]
  rfl

end Cert.Bridge

end
-- ==== Proof.lean ====
/-
  Ten passes of column-then-row normalisation of 131072 matrices of 16 x 16: a kernel that multiplies by reciprocal
  sums against a reference that divides by the sums.

  The input [131072, 256] is, row by row, a 16 x 16 matrix; both programs transpose it, add the constant 0x358637BD
  (about 1e-6) and then, ten times, normalise the columns and then the rows.  The reference divides every entry by the sum
  (x / c); the kernel forms 1 / c on the small array of sums and multiplies (x * (1 / c)).  On the extended reals
  x * (1 / c) = x / c for every x as soon as c is not zero, and the two differ at x = 0 = c (0 * top = 0 against
  0 / 0 = bottom) — which finite inputs of mixed sign can reach, and where the two programs' RESULTS differ.  The
  precondition therefore asks, beside finiteness, that none of the sums the reference divides by is zero: the reference's
  own domain.  Finiteness itself is never used.

  The modules: Sinkhorn (the two arrangements of the chain on one matrix, equal where the dividing one's divisors do not
  vanish), HostSteps + RefValue (the reference's result, matrix by matrix, is the dividing chain), PreDecode (the
  precondition gives the nonvanishing divisors for every matrix), KernelSteps + KernelPayload (one trip of the kernel's
  loop stores the multiplying chain of each of its 128 rows), KernelBlock (the 32 trips' pieces are restrictions of one
  function of the input block and cover the output block), KernelRun (the blocks tile the array; the reshape after the
  region), Bridge (the two results are one function of the input).  Both kernels' frames are the generated ones; the
  reference's frame is its generated run with the result dropped; nothing was rewritten between the kernel and its
  idealization, so that conjunct is trivial.
-/
import proofs.«134620_j74010876444938_2_alg».proof.Defs
import proofs.«134620_j74010876444938_2_alg».proof.Proof.Gen.Kernel
import proofs.«134620_j74010876444938_2_alg».proof.Proof.Gen.Kernel.Skeleton
import proofs.«134620_j74010876444938_2_alg».proof.Proof.Gen.Kernel.Loops
import proofs.«134620_j74010876444938_2_alg».proof.Proof.Gen.Kernel.Launch
import proofs.«134620_j74010876444938_2_alg».proof.Proof.Gen.Kernel.Points
import proofs.«134620_j74010876444938_2_alg».proof.Proof.Gen.Kernel.Frame
import proofs.«134620_j74010876444938_2_alg».proof.Proof.Gen.KernelIdeal
import proofs.«134620_j74010876444938_2_alg».proof.Proof.Gen.KernelIdeal.Skeleton
import proofs.«134620_j74010876444938_2_alg».proof.Proof.Gen.KernelIdeal.Loops
import proofs.«134620_j74010876444938_2_alg».proof.Proof.Gen.KernelIdeal.Launch
import proofs.«134620_j74010876444938_2_alg».proof.Proof.Gen.KernelIdeal.Points
import proofs.«134620_j74010876444938_2_alg».proof.Proof.Gen.KernelIdeal.Frame
import proofs.«134620_j74010876444938_2_alg».proof.Proof.Gen.ReferenceIdeal
import proofs.«134620_j74010876444938_2_alg».proof.Proof.Gen.ReferenceIdeal.Run
import proofs.«134620_j74010876444938_2_alg».proof.Proof.Gen.Pre_finite_inputs
import proofs.«134620_j74010876444938_2_alg».proof.Proof.KernelRun
import proofs.«134620_j74010876444938_2_alg».proof.Proof.Bridge
import Idealize.ShloMosaic.Adequacy
import Idealize.ShloMosaic.Init

noncomputable section

namespace Cert.Proof

open Idealize.ShloMosaic Idealize.ShloMosaic.ValueIdx Idealize.ShloMosaic.TcCoe Idealize.SL.Sem

/-- The kernel as printed runs and keeps its argument: its generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its argument: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for its idealization. -/
theorem preserves : Cert.preserves_Kernel_KernelIdeal := trivial

/-- From memories agreeing on the input, the kernel ends with the reshaped row-by-row multiplying chain of the input
    and the reference with the dividing chain; under the precondition these are one array (`Bridge.ref_eq_rows`). -/
theorem algebraic : Cert.algebraic_KernelIdeal_ReferenceIdeal := by
  intro m ρ m' ρ' hpre hagree
  refine ⟨fun c => Cert.KernelIdeal.RunValue.cube (Cert.KernelIdeal.Block.rowsFun (n := 131072)
      (m ((c.tc : Thread Cert.KernelIdeal.nD Cert.KernelIdeal.τ).loc Cert.KernelIdeal.main_arg0))),
    Cert.KernelIdeal.RunValue.kernel_run m ρ, ?_⟩
  refine (θ_run (Cert.ReferenceIdeal.defs (F := Ideal)) _ _).mono (fun _ h c => ⟨(h c).1.trans ?_, (h c).2⟩)
    (Cert.ReferenceIdeal.Value.run (F := Ideal) m' ρ')
  funext y
  obtain ⟨R, a, b, rfl⟩ : ∃ (R : Fin 131072) (a b : Fin 16), y = ix3 R a b := ⟨y 0, y 1, y 2, eq_ix3 y⟩
  refine Eq.trans ?_ (Cert.KernelIdeal.RunValue.cube_apply _ R a b).symm
  exact Cert.Bridge.ref_eq_rows _ (hpre c) (StableHlo.launchContents m' c) (hagree c) R a b

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
